-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x2 : Shape := ⟨2, ![50000, 2]⟩
abbrev S2x800000 : Shape := ⟨2, ![2, 800000]⟩
abbrev S2x128 : Shape := ⟨2, ![2, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S50000x2 : S_.BroadcastsInDim S50000x2 (![] : Fin 0 → Fin S50000x2.rank)
  reducesTo_S50000x2_S_d0_1 : S50000x2.ReducesTo [0, 1] S_
  h_S_ : 0 < S_.numel
  bcast_S_S2x128 : S_.BroadcastsInDim S2x128 (![] : Fin 0 → Fin S2x128.rank)
  reducesTo_S2x128_S_d0_1 : S2x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_arg12 : FVec F S256x256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg12
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  main_v58

def fn_part2 {F : FTy → Type} [FloatOps F] (main_arg8 : FVec F S256 .f32) (main_arg9 : FVec F S256x256 .f32) (main_arg10 : FVec F S256x256 .f32) (main_arg11 : FVec F S256 .f32) (main_arg12 : FVec F S256x256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_v48 main_v49 main_v50

def fn_part1 {F : FTy → Type} [FloatOps F] (main_arg5 : FVec F S256 .f32) (main_arg6 : FVec F S128x256 .f32) (main_arg7 : FVec F S256x256 .f32) (main_arg8 : FVec F S256 .f32) (main_arg9 : FVec F S256x256 .f32) (main_arg10 : FVec F S256x256 .f32) (main_arg11 : FVec F S256 .f32) (main_arg12 : FVec F S256x256 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S128x256 .f32 := Host.absf main_arg6
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x2 .f32) (main_arg1 : IVec S2x800000 32) (main_arg2 : FVec F S2x128 .f32) (main_arg3 : FVec F S128 .f32) (main_arg4 : FVec F S128x256 .f32) (main_arg5 : FVec F S256 .f32) (main_arg6 : FVec F S128x256 .f32) (main_arg7 : FVec F S256x256 .f32) (main_arg8 : FVec F S256 .f32) (main_arg9 : FVec F S256x256 .f32) (main_arg10 : FVec F S256x256 .f32) (main_arg11 : FVec F S256 .f32) (main_arg12 : FVec F S256x256 .f32) : IVec S_ 1 :=
  let main_v0 : FVec F S50000x2 .f32 := Host.absf main_arg0
  let main_cst : FVec F S_ .f32 := constant S_ .f32 0x7F800000#32
  let main_v1 : FVec F S50000x2 .f32 := broadcastInDim S50000x2 ![] bcast_S_S50000x2 main_cst
  let main_v2 : IVec S50000x2 1 := cmpf .olt main_v0 main_v1
  let main_c : IVec S_ 1 := constantI S_ 1 1#1
  let main_v3 : IVec S_ 1 := (fun x v => Host.reduce IntOp.andi x v reducesTo_S50000x2_S_d0_1 h_S_) main_v2 main_c
  let main_v4 : FVec F S2x128 .f32 := Host.absf main_arg2
  let main_cst_0 : FVec F S_ .f32 := constant S_ .f32 0x7F800000#32
  let main_v5 : FVec F S2x128 .f32 := broadcastInDim S2x128 ![] bcast_S_S2x128 main_cst_0
  let main_v6 : IVec S2x128 1 := cmpf .olt main_v4 main_v5
  let main_c_1 : IVec S_ 1 := constantI S_ 1 1#1
  let main_v7 : IVec S_ 1 := (fun x v => Host.reduce IntOp.andi x v reducesTo_S2x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_arg8 main_arg9 main_arg10 main_arg11 main_arg12 main_v13 main_v16
-- ==== Kernel.lean ====
abbrev S50000x2 : Shape := ⟨2, ![50000, 2]⟩
abbrev S2x800000 : Shape := ⟨2, ![2, 800000]⟩
abbrev S2x128 : Shape := ⟨2, ![2, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128 : Shape := ⟨2, ![1, 128]⟩
abbrev S50000x128 : Shape := ⟨2, ![50000, 128]⟩
abbrev S2000x2 : Shape := ⟨2, ![2000, 2]⟩
abbrev S2000x128 : Shape := ⟨2, ![2000, 128]⟩
abbrev S800000x128 : Shape := ⟨2, ![800000, 128]⟩
abbrev S1x256 : Shape := ⟨2, ![1, 256]⟩
abbrev S50000x256 : Shape := ⟨2, ![50000, 256]⟩
abbrev S2000x1 : Shape := ⟨2, ![2000, 1]⟩
abbrev S2000x256 : Shape := ⟨2, ![2000, 256]⟩
abbrev S800000x256 : Shape := ⟨2, ![800000, 256]⟩

abbrev nBuf : Space → Nat
  | .hbm => 81
  | .vmem => 39
  | .smem => 0
  | _ => 0

abbrev bufTy : (tb : Table) → Fin (tcTables nBuf tb) → BufTy
  | .hbm, ⟨0, _⟩ => ⟨S50000x2, .f32⟩
  | .hbm, ⟨1, _⟩ => ⟨S2x800000, .i32⟩
  | .hbm, ⟨2, _⟩ => ⟨S2x128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S128x256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S1x128, .f32⟩
  | .hbm, ⟨35, _⟩ => ⟨S50000x128, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x128, .f32⟩
  | .hbm, ⟨45, _⟩ => ⟨S_, .f32⟩
  | .hbm, ⟨46, _⟩ => ⟨S50000x128, .f32⟩
  | .hbm, ⟨47, _⟩ => ⟨S800000x1, .i32⟩
  | .hbm, ⟨48, _⟩ => ⟨S50000x128, .f32⟩
  | .hbm, ⟨49, _⟩ => ⟨S1x256, .f32⟩
  | .hbm, ⟨50, _⟩ => ⟨S50000x256, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x256, .f32⟩
  | .hbm, ⟨60, _⟩ => ⟨S_, .f32⟩
  | .hbm, ⟨61, _⟩ => ⟨S50000x256, .f32⟩
  | .hbm, ⟨62, _⟩ => ⟨S800000x1, .i32⟩
  | .hbm, ⟨63, _⟩ => ⟨S50000x256, .f32⟩
  | .hbm, ⟨64, _⟩ => ⟨S1x256, .f32⟩
  | .hbm, ⟨65, _⟩ => ⟨S50000x256, .f32⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x256, .f32⟩
  | .hbm, ⟨75, _⟩ => ⟨S_, .f32⟩
  | .hbm, ⟨76, _⟩ => ⟨S50000x256, .f32⟩
  | .hbm, ⟨77, _⟩ => ⟨S800000x1, .i32⟩
  | .hbm, ⟨78, _⟩ => ⟨S50000x256, .f32⟩
  | .hbm, ⟨79, _⟩ => ⟨S1x256, .f32⟩
  | .hbm, ⟨80, _⟩ => ⟨S50000x256, .f32⟩
  | .local _ .vmem, ⟨0, _⟩ => ⟨S2000x2, .f32⟩
  | .local _ .vmem, ⟨1, _⟩ => ⟨S2000x2, .f32⟩
  | .local _ .vmem, ⟨2, _⟩ => ⟨S2x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x1, .f32⟩
  | .local _ .vmem, ⟨11, _⟩ => ⟨S2000x1, .f32⟩
  | .local _ .vmem, ⟨12, _⟩ => ⟨S128x256, .f32⟩
  | .local _ .vmem, ⟨13, _⟩ => ⟨S128x256, .f32⟩
  | .local _ .vmem, ⟨14, _⟩ => ⟨S1x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x1, .f32⟩
  | .local _ .vmem, ⟨22, _⟩ => ⟨S2000x1, .f32⟩
  | .local _ .vmem, ⟨23, _⟩ => ⟨S256x256, .f32⟩
  | .local _ .vmem, ⟨24, _⟩ => ⟨S256x256, .f32⟩
  | .local _ .vmem, ⟨25, _⟩ => ⟨S1x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S2000x1, .f32⟩
  | .local _ .vmem, ⟨33, _⟩ => ⟨S2000x1, .f32⟩
  | .local _ .vmem, ⟨34, _⟩ => ⟨S256x256, .f32⟩
  | .local _ .vmem, ⟨35, _⟩ => ⟨S256x256, .f32⟩
  | .local _ .vmem, ⟨36, _⟩ => ⟨S1x256, .f32⟩
  | .local _ .vmem, ⟨37, _⟩ => ⟨S2000x256, .f32⟩
  | .local _ .vmem, ⟨38, _⟩ => ⟨S2000x256, .f32⟩
  | _, _ => ⟨S50000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_5 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_6 : Ref sig .tc := ⟨.hbm, 51, rfl⟩
abbrev main_v28 : Ref sig .tc := ⟨.hbm, 52, rfl⟩
abbrev main_v29 : Ref sig .tc := ⟨.hbm, 53, rfl⟩
abbrev main_c_7 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_9 : Ref sig .tc := ⟨.hbm, 66, rfl⟩
abbrev main_v40 : Ref sig .tc := ⟨.hbm, 67, rfl⟩
abbrev main_v41 : Ref sig .tc := ⟨.hbm, 68, rfl⟩
abbrev main_c_10 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_11 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg6_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem6_1 : DmaSem sig := 38

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  shapeCasts_S128_S1x128 : S128.ShapeCasts S1x128
  inb_S2000x2_S2000x2_0_0 : ∀ a, (![0, 0] : Fin 2 → Nat) a + S2000x2.size a ≤ S2000x2.size a
  h_S2000x2 : 0 < S2000x2.numel
  bitsLt_bf16_f32 : FTy.bits .bf16 < FTy.bits .f32
  inb_S2x128_S2x128_0_0 : ∀ a, (![0, 0] : Fin 2 → Nat) a + S2x128.size a ≤ S2x128.size a
  h_S2x128 : 0 < S2x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  shapeCasts_S256_S1x256 : S256.ShapeCasts S1x256
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  shapeCasts_S2000x256_S2000x256 : S2000x256.ShapeCasts S2000x256
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  scatter_S50000_S800000x1_S800000_n_0_0_1_wf : ScatterDims.WF S50000 S800000x1 S800000 [] [0] [0] 1
  dot_S2000x2_S2x128_S2000x128_1_0_0_1_n_n_wf : DotDims.WF S2000x2 S2x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x2.size a ≤ S50000x2.size a
  hwx0_0 : ∀ i : grid0.Coords, EltTy.bits .f32 = 32 ∨ (Rect.block (s := S50000x2) S2000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x128.size a ≤ S2x128.size a
  hwx0_1 : ∀ i : grid0.Coords, EltTy.bits .f32 = 32 ∨ (Rect.block (s := S2x128) S2x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .f32 = 32 ∨ (Rect.block (s := S128x256) S128x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S50000x256.size a
  hwx1_6 : ∀ i : grid1.Coords, EltTy.bits .f32 = 32 ∨ (Rect.block (s := S50000x256) S2000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x256.size a ≤ S50000x256.size a
  hwx2_6 : ∀ i : grid2.Coords, EltTy.bits .f32 = 32 ∨ (Rect.block (s := S50000x256) S2000x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .f32 = 32 ∨ (Rect.block (s := S256x256) S256x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x256.size a ≤ S50000x256.size a
  hwx3_6 : ∀ i : grid3.Coords, EltTy.bits .f32 = 32 ∨ (Rect.block (s := S50000x256) S2000x256.size (cc3_transform_6 i) (hinb3_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x2_S2x128_S2000x128_1_0_0_1_n_n : DotDims S2000x2 S2x128 S2000x128 where
  lhsContracting := [1]
  rhsContracting := [0]
  lhsNonContracting := [0]
  rhsNonContracting := [1]
  lhsBatch := []
  rhsBatch := []
  wf := dot_S2000x2_S2x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v37) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v39) S2000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v49) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v13) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg12) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v50) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v51) S2000x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x2 : Shape := ⟨2, ![50000, 2]⟩
abbrev S2x800000 : Shape := ⟨2, ![2, 800000]⟩
abbrev S2x128 : Shape := ⟨2, ![2, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x128 : Shape := ⟨2, ![50000, 128]⟩
abbrev S1x128 : Shape := ⟨2, ![1, 128]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩

abbrev nBuf : Space → Nat
  | .hbm => 113
  | .vmem => 0
  | .smem => 0
  | _ => 0

abbrev bufTy : (tb : Table) → Fin (tcTables nBuf tb) → BufTy
  | .hbm, ⟨0, _⟩ => ⟨S50000x2, .f32⟩
  | .hbm, ⟨1, _⟩ => ⟨S2x800000, .i32⟩
  | .hbm, ⟨2, _⟩ => ⟨S2x128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S128x256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S1x128, .f32⟩
  | .hbm, ⟨36, _⟩ => ⟨S50000x128, .f32⟩
  | .hbm, ⟨37, _⟩ => ⟨S50000x128, .f32⟩
  | .hbm, ⟨38, _⟩ => ⟨S_, .f32⟩
  | .hbm, ⟨39, _⟩ => ⟨S50000x128, .f32⟩
  | .hbm, ⟨40, _⟩ => ⟨S50000x128, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S50000x256, .f32⟩
  | .hbm, ⟨57, _⟩ => ⟨S1x256, .f32⟩
  | .hbm, ⟨58, _⟩ => ⟨S50000x256, .f32⟩
  | .hbm, ⟨59, _⟩ => ⟨S50000x256, .f32⟩
  | .hbm, ⟨60, _⟩ => ⟨S50000x256, .f32⟩
  | .hbm, ⟨61, _⟩ => ⟨S50000x256, .f32⟩
  | .hbm, ⟨62, _⟩ => ⟨S_, .f32⟩
  | .hbm, ⟨63, _⟩ => ⟨S50000x256, .f32⟩
  | .hbm, ⟨64, _⟩ => ⟨S50000x256, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x256, .f32⟩
  | .hbm, ⟨74, _⟩ => ⟨S_, .f32⟩
  | .hbm, ⟨75, _⟩ => ⟨S50000x256, .f32⟩
  | .hbm, ⟨76, _⟩ => ⟨S800000x1, .i32⟩
  | .hbm, ⟨77, _⟩ => ⟨S50000x256, .f32⟩
  | .hbm, ⟨78, _⟩ => ⟨S50000x256, .f32⟩
  | .hbm, ⟨79, _⟩ => ⟨S50000x256, .f32⟩
  | .hbm, ⟨80, _⟩ => ⟨S50000x256, .f32⟩
  | .hbm, ⟨81, _⟩ => ⟨S1x256, .f32⟩
  | .hbm, ⟨82, _⟩ => ⟨S50000x256, .f32⟩
  | .hbm, ⟨83, _⟩ => ⟨S50000x256, .f32⟩
  | .hbm, ⟨84, _⟩ => ⟨S50000x256, .f32⟩
  | .hbm, ⟨85, _⟩ => ⟨S50000x256, .f32⟩
  | .hbm, ⟨86, _⟩ => ⟨S_, .f32⟩
  | .hbm, ⟨87, _⟩ => ⟨S50000x256, .f32⟩
  | .hbm, ⟨88, _⟩ => ⟨S50000x256, .f32⟩
  | .hbm, ⟨89, _⟩ => ⟨S_, .i32⟩
  | .hbm, ⟨90, _⟩ => ⟨S800000, .i32⟩
  | .hbm, ⟨91, _⟩ => ⟨S800000, .i1⟩
  | .hbm, ⟨92, _⟩ => ⟨S_, .i32⟩
  | .hbm, ⟨93, _⟩ => ⟨S800000, .i32⟩
  | .hbm, ⟨94, _⟩ => ⟨S800000, .i32⟩
  | .hbm, ⟨95, _⟩ => ⟨S800000, .i32⟩
  | .hbm, ⟨96, _⟩ => ⟨S800000x1, .i32⟩
  | .hbm, ⟨97, _⟩ => ⟨S800000x256, .f32⟩
  | .hbm, ⟨98, _⟩ => ⟨S_, .f32⟩
  | .hbm, ⟨99, _⟩ => ⟨S50000x256, .f32⟩
  | .hbm, ⟨100, _⟩ => ⟨S800000x1, .i32⟩
  | .hbm, ⟨101, _⟩ => ⟨S50000x256, .f32⟩
  | .hbm, ⟨102, _⟩ => ⟨S50000x256, .f32⟩
  | .hbm, ⟨103, _⟩ => ⟨S50000x256, .f32⟩
  | .hbm, ⟨104, _⟩ => ⟨S50000x256, .f32⟩
  | .hbm, ⟨105, _⟩ => ⟨S1x256, .f32⟩
  | .hbm, ⟨106, _⟩ => ⟨S50000x256, .f32⟩
  | .hbm, ⟨107, _⟩ => ⟨S50000x256, .f32⟩
  | .hbm, ⟨108, _⟩ => ⟨S50000x256, .f32⟩
  | .hbm, ⟨109, _⟩ => ⟨S50000x256, .f32⟩
  | .hbm, ⟨110, _⟩ => ⟨S_, .f32⟩
  | .hbm, ⟨111, _⟩ => ⟨S50000x256, .f32⟩
  | .hbm, ⟨112, _⟩ => ⟨S50000x256, .f32⟩
  | _, _ => ⟨S50000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_call1_cst : Ref sig .tc := ⟨.hbm, 38, rfl⟩
abbrev main_call1_v0 : Ref sig .tc := ⟨.hbm, 39, rfl⟩
abbrev main_v18 : Ref sig .tc := ⟨.hbm, 40, rfl⟩
abbrev main_c : Ref sig .tc := ⟨.hbm, 41, rfl⟩
abbrev main_v19 : Ref sig .tc := ⟨.hbm, 42, rfl⟩
abbrev main_v20 : Ref sig .tc := ⟨.hbm, 43, rfl⟩
abbrev main_c_4 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_call2_cst : Ref sig .tc := ⟨.hbm, 62, rfl⟩
abbrev main_call2_v0 : Ref sig .tc := ⟨.hbm, 63, rfl⟩
abbrev main_v37 : Ref sig .tc := ⟨.hbm, 64, rfl⟩
abbrev main_c_6 : Ref sig .tc := ⟨.hbm, 65, rfl⟩
abbrev main_v38 : Ref sig .tc := ⟨.hbm, 66, rfl⟩
abbrev main_v39 : Ref sig .tc := ⟨.hbm, 67, rfl⟩
abbrev main_c_7 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_8 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_call3_cst : Ref sig .tc := ⟨.hbm, 86, rfl⟩
abbrev main_call3_v0 : Ref sig .tc := ⟨.hbm, 87, rfl⟩
abbrev main_v56 : Ref sig .tc := ⟨.hbm, 88, rfl⟩
abbrev main_c_9 : Ref sig .tc := ⟨.hbm, 89, rfl⟩
abbrev main_v57 : Ref sig .tc := ⟨.hbm, 90, rfl⟩
abbrev main_v58 : Ref sig .tc := ⟨.hbm, 91, rfl⟩
abbrev main_c_10 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_11 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_call4_cst : Ref sig .tc := ⟨.hbm, 110, rfl⟩
abbrev main_call4_v0 : Ref sig .tc := ⟨.hbm, 111, rfl⟩
abbrev main_v75 : Ref sig .tc := ⟨.hbm, 112, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  scatter_S50000_S800000x1_S800000_n_0_0_1_wf : ScatterDims.WF S50000 S800000x1 S800000 [] [0] [0] 1
  dot_S50000x2_S2x128_S50000x128_1_0_0_1_n_n_wf : DotDims.WF S50000x2 S2x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x2_S2x128_S50000x128_1_0_0_1_n_n : DotDims S50000x2 S2x128 S50000x128 where
  lhsContracting := [1]
  rhsContracting := [0]
  lhsNonContracting := [0]
  rhsNonContracting := [1]
  lhsBatch := []
  rhsBatch := []
  wf := dot_S50000x2_S2x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KernelRun.lean ====
/-
  The kernel program's run with its result named.

  The program is four pipelined regions among stretches of host operations.  The contents of every buffer at each
  boundary are a fold from the launch memory: a host stretch applies its operations, a region replaces each of
  its output arrays by what its write-backs leave.  Every weakly fair execution terminates, nothing faults, the
  result buffer ends at the last boundary's contents of it, and the argument arrays end as launched.
-/
import proofs.«175068_j41858751266832_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault, with the result buffer at the last
    boundary's contents of it and each argument array as launched. -/
theorem run : θ_run defs (onTc (τ := τ) (main (F := F))) ⟨m, fun _ => 0, ρ⟩ (fun r => ∀ c : Dev nD,
      r.2.mem ((c.tc : Thread nD τ).loc main_v51) = W10 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v51 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c)⟩)

end Cert.KernelIdeal.Named

end
-- ==== Proof.Keep.lean ====
/-
  Which buffers a stretch of host operations, or a pipelined region, leaves alone.

  A host operation rewrites only its result buffer, so a buffer that is the result of none of a stretch's
  operations holds after the stretch what it held before.  A region rewrites only its output array: each of its
  input arrays, and every buffer that is no array of the region at all, holds at the region's exit what it held
  at its entry.
-/
import proofs.«175068_j41858751266832_1_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- A buffer that no operation of a literal stretch writes: the stretch's fold leaves it. -/
macro "host_leaves" ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- The argument arrays. -/
abbrev args : List (Ref sig .tc) :=
  [main_arg0, main_arg1, main_arg2, main_arg3, main_arg4, main_arg5, main_arg6, main_arg7, main_arg8, main_arg9,
   main_arg10, main_arg11, main_arg12]

/-- The buffers that are written before the first region and never after: the edge sources and destinations, the
    inverse-degree column, and the argument arrays. -/
abbrev fixed : List (Ref sig .tc) := main_v1 :: main_v3 :: main_v13 :: args

/-- Those and the three hidden layers, each written by one region only. -/
abbrev carried : List (Ref sig .tc) := main_v15 :: main_v27 :: main_v39 :: fixed

/-! ## The stretches before the first region leave the argument arrays -/

theorem args_at_entry0 (c : Dev nD) : ∀ b ∈ args, W3 m ρ c (Proc.devRef .tc b) = W0 m ρ c (Proc.devRef .tc b) := by
  intro b hb
  have h2 : W3 m ρ c (Proc.devRef .tc b) = W2 m ρ c (Proc.devRef .tc b) := by
    simp only [args, List.mem_cons, List.not_mem_nil, or_false] at hb
    rcases hb with rfl | rfl | rfl | rfl | rfl | rfl | rfl | rfl | rfl | rfl | rfl | rfl | rfl <;> host_leaves hostOps0_2
  have h1 : W2 m ρ c (Proc.devRef .tc b) = W1 m ρ c (Proc.devRef .tc b) := by
    simp only [args, List.mem_cons, List.not_mem_nil, or_false] at hb
    rcases hb with rfl | rfl | rfl | rfl | rfl | rfl | rfl | rfl | rfl | rfl | rfl | rfl | rfl <;> host_leaves hostOps0_1
  have h0 : W1 m ρ c (Proc.devRef .tc b) = W0 m ρ c (Proc.devRef .tc b) := by
    simp only [args, List.mem_cons, List.not_mem_nil, or_false] at hb
    rcases hb with rfl | rfl | rfl | rfl | rfl | rfl | rfl | rfl | rfl | rfl | rfl | rfl | rfl <;> host_leaves hostOps0
  exact h2.trans (h1.trans h0)

/-! ## The stretches between the regions leave the carried buffers -/

theorem carried_over1 (c : Dev nD) : ∀ b ∈ carried, W5 m ρ c (Proc.devRef .tc b) = W4 m ρ c (Proc.devRef .tc b) := by
  intro b hb
  simp only [carried, fixed, args, List.mem_cons, List.not_mem_nil, or_false] at hb
  rcases hb with rfl | rfl | rfl | rfl | rfl | rfl | rfl | rfl | rfl | rfl | rfl | rfl | rfl | rfl | rfl | rfl | rfl | rfl | rfl <;> host_leaves hostOps1

theorem carried_over2 (c : Dev nD) : ∀ b ∈ carried, W7 m ρ c (Proc.devRef .tc b) = W6 m ρ c (Proc.devRef .tc b) := by
  intro b hb
  simp only [carried, fixed, args, List.mem_cons, List.not_mem_nil, or_false] at hb
  rcases hb with rfl | rfl | rfl | rfl | rfl | rfl | rfl | rfl | rfl | rfl | rfl | rfl | rfl | rfl | rfl | rfl | rfl | rfl | rfl <;> host_leaves hostOps2

theorem carried_over3 (c : Dev nD) : ∀ b ∈ carried, W9 m ρ c (Proc.devRef .tc b) = W8 m ρ c (Proc.devRef .tc b) := by
  intro b hb
  simp only [carried, fixed, args, List.mem_cons, List.not_mem_nil, or_false] at hb
  rcases hb with rfl | rfl | rfl | rfl | rfl | rfl | rfl | rfl | rfl | rfl | rfl | rfl | rfl | rfl | rfl | rfl | rfl | rfl | rfl <;> host_leaves hostOps3

/-! ## A region leaves every buffer but its output array -/

theorem inputs0 : ∀ w : Fin cfg0.W, Pipeline.arrRef spec0 w ≠ main_v15 → (cfg0.win w).isOut = false := by decide
theorem inputs1 : ∀ w : Fin cfg1.W, Pipeline.arrRef spec1 w ≠ main_v27 → (cfg1.win w).isOut = false := by decide
theorem inputs2 : ∀ w : Fin cfg2.W, Pipeline.arrRef spec2 w ≠ main_v39 → (cfg2.win w).isOut = false := by decide
theorem inputs3 : ∀ w : Fin cfg3.W, Pipeline.arrRef spec3 w ≠ main_v51 → (cfg3.win w).isOut = false := by decide

theorem across0 (c : Dev nD) (b : Ref sig .tc) (hb : b ≠ main_v15) :
    W4 m ρ c (Proc.devRef .tc b) = W3 m ρ c (Proc.devRef .tc b) := by
  by_cases h : ∃ w, Pipeline.arrRef spec0 w = b
  · obtain ⟨w, rfl⟩ := h
    exact (W4_arr m ρ c w).trans (((dat0 (V3 m ρ) c).arrAt_in w (inputs0 w hb) _).trans (A_eq0 (V3 m ρ) c w))
  · exact W4_of_ne m ρ c b fun w e => h ⟨w, e⟩

theorem across1 (c : Dev nD) (b : Ref sig .tc) (hb : b ≠ main_v27) :
    W6 m ρ c (Proc.devRef .tc b) = W5 m ρ c (Proc.devRef .tc b) := by
  by_cases h : ∃ w, Pipeline.arrRef spec1 w = b
  · obtain ⟨w, rfl⟩ := h
    exact (W6_arr m ρ c w).trans (((dat1 (V5 m ρ) c).arrAt_in w (inputs1 w hb) _).trans (A_eq1 (V5 m ρ) c w))
  · exact W6_of_ne m ρ c b fun w e => h ⟨w, e⟩

theorem across2 (c : Dev nD) (b : Ref sig .tc) (hb : b ≠ main_v39) :
    W8 m ρ c (Proc.devRef .tc b) = W7 m ρ c (Proc.devRef .tc b) := by
  by_cases h : ∃ w, Pipeline.arrRef spec2 w = b
  · obtain ⟨w, rfl⟩ := h
    exact (W8_arr m ρ c w).trans (((dat2 (V7 m ρ) c).arrAt_in w (inputs2 w hb) _).trans (A_eq2 (V7 m ρ) c w))
  · exact W8_of_ne m ρ c b fun w e => h ⟨w, e⟩

theorem across3 (c : Dev nD) (b : Ref sig .tc) (hb : b ≠ main_v51) :
    W10 m ρ c (Proc.devRef .tc b) = W9 m ρ c (Proc.devRef .tc b) := by
  by_cases h : ∃ w, Pipeline.arrRef spec3 w = b
  · obtain ⟨w, rfl⟩ := h
    exact (W10_arr m ρ c w).trans (((dat3 (V9 m ρ) c).arrAt_in w (inputs3 w hb) _).trans (A_eq3 (V9 m ρ) c w))
  · exact W10_of_ne m ρ c b fun w e => h ⟨w, e⟩

/-! ## The fixed buffers hold at every later boundary what they held at the first region's entry -/

theorem fixed_ne15 : ∀ b ∈ fixed, b ≠ main_v15 := by decide
theorem fixed_ne27 : ∀ b ∈ fixed, b ≠ main_v27 := by decide
theorem fixed_ne39 : ∀ b ∈ fixed, b ≠ main_v39 := by decide
theorem fixed_sub : ∀ b ∈ fixed, b ∈ carried := fun b hb => List.mem_cons_of_mem _ (List.mem_cons_of_mem _ (List.mem_cons_of_mem _ hb))

theorem fixed4 (c : Dev nD) : ∀ b ∈ fixed, W4 m ρ c (Proc.devRef .tc b) = W3 m ρ c (Proc.devRef .tc b) :=
  fun b hb => across0 m ρ c b (fixed_ne15 b hb)
theorem fixed5 (c : Dev nD) : ∀ b ∈ fixed, W5 m ρ c (Proc.devRef .tc b) = W3 m ρ c (Proc.devRef .tc b) :=
  fun b hb => (carried_over1 m ρ c b (fixed_sub b hb)).trans (fixed4 m ρ c b hb)
theorem fixed6 (c : Dev nD) : ∀ b ∈ fixed, W6 m ρ c (Proc.devRef .tc b) = W3 m ρ c (Proc.devRef .tc b) :=
  fun b hb => (across1 m ρ c b (fixed_ne27 b hb)).trans (fixed5 m ρ c b hb)
theorem fixed7 (c : Dev nD) : ∀ b ∈ fixed, W7 m ρ c (Proc.devRef .tc b) = W3 m ρ c (Proc.devRef .tc b) :=
  fun b hb => (carried_over2 m ρ c b (fixed_sub b hb)).trans (fixed6 m ρ c b hb)
theorem fixed8 (c : Dev nD) : ∀ b ∈ fixed, W8 m ρ c (Proc.devRef .tc b) = W3 m ρ c (Proc.devRef .tc b) :=
  fun b hb => (across2 m ρ c b (fixed_ne39 b hb)).trans (fixed7 m ρ c b hb)
theorem fixed9 (c : Dev nD) : ∀ b ∈ fixed, W9 m ρ c (Proc.devRef .tc b) = W3 m ρ c (Proc.devRef .tc b) :=
  fun b hb => (carried_over3 m ρ c b (fixed_sub b hb)).trans (fixed8 m ρ c b hb)

end Cert.KernelIdeal.Keep

end
-- ==== Proof.Spec.lean ====
/-
  The network as functions of whole arrays, over the extended reals.

  A graph with 50000 nodes and 800000 directed edges is given as two rows of node numbers: row 0 holds each
  edge's source, row 1 its destination.  A source number below zero counts from the end (50000 is added).
  `invDeg` is, per node, one over the number of edges that end there, and zero where none does.
  `gatherScatter` sums, per node, the feature rows of the sources of the edges that end there.

  `inProj x W b` is the entry-wise `max (x · W + b) 0`; `sage a h s Wl Wr b` is the entry-wise
  `max ((a ∘ s) · Wl + h · Wr + b) 0`, where `a ∘ s` scales row `p` of `a` by `s p`.  The network is
  `inProj` followed by three `sage` layers, each fed the neighbour sums of the layer before it.
-/
import Idealize.ShloMosaic.Lib.ValueIdx
import Idealize.ShloMosaic.PureOps.Ideal.Laws
import proofs.«175068_j41858751266832_1_alg».proof.KernelIdeal

noncomputable section

open scoped BigOperators

namespace Cert.Spec

open Idealize.ShloMosaic Idealize.ShloMosaic.ValueIdx
open Cert.KernelIdeal Cert.KernelIdeal.Facts₀ Cert.KernelIdeal.Facts

/-! ## Entry-wise layers -/

/-- A two-axis array given by its entries. -/
def ofEntries {a b : ℕ} (f : Fin a → Fin b → EReal) : FVec Ideal ⟨2, ![a, b]⟩ .f32 := fun i => f (i 0) (i 1)

theorem ofEntries_apply {a b : ℕ} (f : Fin a → Fin b → EReal) (p : Fin a) (c : Fin b) :
    ofEntries f (ix2 p c) = f p c := rfl

/-- `max (x · W + b) 0`, entry by entry; the bias is a row `[1, d]`. -/
def inProj {r k d : ℕ} (x : FVec Ideal ⟨2, ![r, k]⟩ .f32) (W : FVec Ideal ⟨2, ![k, d]⟩ .f32)
    (b : FVec Ideal ⟨2, ![1, d]⟩ .f32) : FVec Ideal ⟨2, ![r, d]⟩ .f32 :=
  ofEntries fun p c => max ((∑ q : Fin k, x (ix2 p q) * W (ix2 q c)) + b (ix2 (0 : Fin 1) c)) 0

/-- `max ((a ∘ s) · Wl + h · Wr + b) 0`, entry by entry; the scale `s` is a column `[r, 1]`, the bias a row. -/
def sage {r k d : ℕ} (a h : FVec Ideal ⟨2, ![r, k]⟩ .f32) (s : FVec Ideal ⟨2, ![r, 1]⟩ .f32)
    (Wl Wr : FVec Ideal ⟨2, ![k, d]⟩ .f32) (b : FVec Ideal ⟨2, ![1, d]⟩ .f32) : FVec Ideal ⟨2, ![r, d]⟩ .f32 :=
  ofEntries fun p c => max (((∑ q : Fin k, (a (ix2 p q) * s (ix2 p (0 : Fin 1))) * Wl (ix2 q c))
    + (∑ q : Fin k, h (ix2 p q) * Wr (ix2 q c))) + b (ix2 (0 : Fin 1) c)) 0

/-! ## The graph operations, as the host computes them -/

variable [Cert.KernelIdeal.Facts]

/-- Row 0 of the edge list: the sources. -/
def src (E : (⟨S2x800000, .i32⟩ : BufTy).Contents (Elt Ideal)) : (⟨S800000, .i32⟩ : BufTy).Contents (Elt Ideal) :=
  shapeCast _ (extractStridedSlice S1x800000 ![0, 0] E slices_S2x800000_S1x800000_0_0) shapeCasts_S1x800000_S800000

/-- Row 1 of the edge list: the destinations. -/
def dst (E : (⟨S2x800000, .i32⟩ : BufTy).Contents (Elt Ideal)) : (⟨S800000, .i32⟩ : BufTy).Contents (Elt Ideal) :=
  shapeCast _ (extractStridedSlice S1x800000 ![1, 0] E slices_S2x800000_S1x800000_1_0) shapeCasts_S1x800000_S800000

/-- Per node, the number of edges ending there. -/
def deg (d : (⟨S800000, .i32⟩ : BufTy).Contents (Elt Ideal)) : FVec Ideal S50000 .f32 :=
  Host.scatterAdd scatter_S50000_S800000x1_S800000_n_0_0_1
    (broadcastInDim S50000 ![] bcast_S_S50000 (constant (F := Ideal) S_ .f32 0x00000000#32))
    (broadcastInDim S800000x1 ![0] bcast_S800000_S800000x1_0 d)
    (broadcastInDim S800000 ![] bcast_S_S800000 (constant (F := Ideal) S_ .f32 0x3F800000#32))

/-- Per node, one over its in-degree where that is positive and zero elsewhere, as a column. -/
def invDeg (d : (⟨S800000, .i32⟩ : BufTy).Contents (Elt Ideal)) : FVec Ideal S50000x1 .f32 :=
  broadcastInDim S50000x1 ![0] bcast_S50000_S50000x1_0
    (select (cmpf .ogt (deg d) (broadcastInDim S50000 ![] bcast_S_S50000 (constant (F := Ideal) S_ .f32 0x00000000#32)))
      (Host.divf (broadcastInDim S50000 ![] bcast_S_S50000 (constant (F := Ideal) S_ .f32 0x3F800000#32)) (deg d))
      (broadcastInDim S50000 ![] bcast_S_S50000 (id (constant (F := Ideal) S_ .f32 0x00000000#32))))

/-- The sources with a number below zero counted from the end, as a column of indices. -/
def srcCol (s : (⟨S800000, .i32⟩ : BufTy).Contents (Elt Ideal)) : (⟨S800000x1, .i32⟩ : BufTy).Contents (Elt Ideal) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- Per node, the sum of the 128-wide feature rows of the sources of the edges ending there. -/
def agg128 (s d : (⟨S800000, .i32⟩ : BufTy).Contents (Elt Ideal)) (h : FVec Ideal S50000x128 .f32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 d)
    (Host.gather gather_S50000x128_S800000x1_S800000x128_1_0_n_n_0_1_1128 h (srcCol s))

/-- The same for 256-wide rows. -/
def agg256 (s d : (⟨S800000, .i32⟩ : BufTy).Contents (Elt Ideal)) (h : FVec Ideal S50000x256 .f32) : FVec Ideal S50000x256 .f32 :=
  Host.scatterAdd scatter_S50000x256_S800000x1_S800000x256_1_0_0_1
    (broadcastInDim S50000x256 ![] bcast_S_S50000x256 (constant (F := Ideal) S_ .f32 0x00000000#32))
    (broadcastInDim S800000x1 ![0] bcast_S800000_S800000x1_0 d)
    (Host.gather gather_S50000x256_S800000x1_S800000x256_1_0_n_n_0_1_1256 h (srcCol s))

/-- A length-128 bias as a row. -/
def row128 (b : FVec Ideal S128 .f32) : FVec Ideal S1x128 .f32 := shapeCast _ b shapeCasts_S128_S1x128
/-- A length-256 bias as a row. -/
def row256 (b : FVec Ideal S256 .f32) : FVec Ideal S1x256 .f32 := shapeCast _ b shapeCasts_S256_S1x256

/-! ## The network -/

/-- The first hidden layer. -/
def h0 (x : FVec Ideal S50000x2 .f32) (Win : FVec Ideal S2x128 .f32) (bin : FVec Ideal S128 .f32) : FVec Ideal S50000x128 .f32 :=
  inProj x Win (row128 bin)

/-- The second: a neighbour-mean layer from 128 to 256 features. -/
def h1 (E : (⟨S2x800000, .i32⟩ : BufTy).Contents (Elt Ideal)) (g : FVec Ideal S50000x128 .f32)
    (Wl : FVec Ideal S128x256 .f32) (bl : FVec Ideal S256 .f32) (Wr : FVec Ideal S128x256 .f32) : FVec Ideal S50000x256 .f32 :=
  sage (agg128 (src E) (dst E) g) g (invDeg (dst E)) Wl Wr (row256 bl)

/-- The third and fourth: neighbour-mean layers from 256 to 256 features. -/
def h2 (E : (⟨S2x800000, .i32⟩ : BufTy).Contents (Elt Ideal)) (g : FVec Ideal S50000x256 .f32)
    (Wl : FVec Ideal S256x256 .f32) (bl : FVec Ideal S256 .f32) (Wr : FVec Ideal S256x256 .f32) : FVec Ideal S50000x256 .f32 :=
  sage (agg256 (src E) (dst E) g) g (invDeg (dst E)) Wl Wr (row256 bl)

/-- The whole network. -/
def net (x : FVec Ideal S50000x2 .f32) (E : (⟨S2x800000, .i32⟩ : BufTy).Contents (Elt Ideal))
    (Win : FVec Ideal S2x128 .f32) (bin : FVec Ideal S128 .f32)
    (Wl1 : FVec Ideal S128x256 .f32) (bl1 : FVec Ideal S256 .f32) (Wr1 : FVec Ideal S128x256 .f32)
    (Wl2 : FVec Ideal S256x256 .f32) (bl2 : FVec Ideal S256 .f32) (Wr2 : FVec Ideal S256x256 .f32)
    (Wl3 : FVec Ideal S256x256 .f32) (bl3 : FVec Ideal S256 .f32) (Wr3 : FVec Ideal S256x256 .f32) : FVec Ideal S50000x256 .f32 :=
  h2 E (h2 E (h1 E (h0 x Win bin) Wl1 bl1 Wr1) Wl2 bl2 Wr2) Wl3 bl3 Wr3

end Cert.Spec

end
-- ==== Proof.LibLineCuts.lean ====
/-
  A long straight line of host operations, evaluated in parts.

  The contents of a buffer after a straight line of operations, written as one term of the line's inputs, repeats
  every shared intermediate value at each of its uses, and a line that uses its stages several times each (a
  softmax of scores of features of neighbour sums …) gives a term too large to compare in one step. Two facts let
  such a line be evaluated stage by stage instead. A line run from a valuation is its second part run from where
  its first part ends (the library's `StableHlo.after_append`), so it can be cut wherever a stage ends, and each part evaluated from an ARBITRARY valuation
  that is only assumed to hold the earlier stages' values at the buffers the part reads. And the operations of an
  outlined function carry their values to each buffer's own type and back; the two carriages go along one
  equation between the two types and cancel, which leaves the plain operations' term.
-/
import Idealize.ShloMosaic.Lib.StableHlo.Run

namespace Cert.LibLineCuts

open Idealize.ShloMosaic Idealize.ShloMosaic.StableHlo

variable {τ : Topo} {sig : RefSig} {Val : EltTy → Type}

/-- Contents carried to a buffer's own type and back are the contents. -/
theorem ofBuf_toBuf {T : BufTy} (x : TRef sig T) (v : T.Contents Val) : x.ofBuf (x.toBuf v) = v := by
  obtain ⟨r, h, _, _⟩ := x
  subst h
  rfl

/-- Contents of a buffer carried to the value's type and back are the contents. -/
theorem toBuf_ofBuf {T : BufTy} (x : TRef sig T) (v : x.ref.ty.Contents Val) : x.toBuf (x.ofBuf v) = v := by
  obtain ⟨r, h, _, _⟩ := x
  subst h
  rfl

end Cert.LibLineCuts
-- ==== Proof.Entry.lean ====
/-
  The buffers the host fills before the first region.

  From the launch memory the first stretches of host operations take the two rows of the edge list apart (the
  sources, the destinations), count per node the edges that end there, and form the inverse-degree column: one
  over the count where it is positive and zero elsewhere, the choice made by an outlined select whose operations
  carry their values to each buffer's own type and back.  They also view the first bias as a row.  Each of these
  buffers is read here as the graph operation it holds, of the edge list and the bias as launched.
-/
import proofs.«175068_j41858751266832_1_alg».proof.Proof.Gen.KernelIdeal.Frame
import proofs.«175068_j41858751266832_1_alg».proof.Proof.Spec
import proofs.«175068_j41858751266832_1_alg».proof.Proof.LibLineCuts
import Idealize.ShloMosaic.Lib.StableHlo.Run

set_option maxRecDepth 16384

noncomputable section

namespace Cert.KernelIdeal.Entry

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The edge list's rows and the bias row, through all three stretches -/

theorem src_at3 : W3 m ρ c (Proc.devRef .tc main_v1) = Cert.Spec.src (m ((c.tc : Thread nD τ).loc main_arg1)) := by
  show StableHlo.after hostOps0_2 (StableHlo.after hostOps0_1 (StableHlo.after hostOps0 (W0 m ρ c))) (Proc.devRef .tc main_v1) = _
  after_results
  rfl

theorem dst_at3 : W3 m ρ c (Proc.devRef .tc main_v3) = Cert.Spec.dst (m ((c.tc : Thread nD τ).loc main_arg1)) := by
  show StableHlo.after hostOps0_2 (StableHlo.after hostOps0_1 (StableHlo.after hostOps0 (W0 m ρ c))) (Proc.devRef .tc main_v3) = _
  after_results
  rfl

theorem row_at3 : W3 m ρ c (Proc.devRef .tc main_v14) = Cert.Spec.row128 (m ((c.tc : Thread nD τ).loc main_arg3)) := by
  show StableHlo.after hostOps0_2 (StableHlo.after hostOps0_1 (StableHlo.after hostOps0 (W0 m ρ c))) (Proc.devRef .tc main_v14) = _
  after_results
  rfl

/-! ## The inverse-degree column -/

/-- After the first stretch: where the in-degree is positive. -/
theorem pos_at1 : W1 m ρ c (Proc.devRef .tc main_v9)
    = cmpf (F := Ideal) .ogt (Cert.Spec.deg (Cert.Spec.dst (m ((c.tc : Thread nD τ).loc main_arg1))))
        (broadcastInDim S50000 ![] Cert.KernelIdeal.Facts₀.bcast_S_S50000 (constant (F := Ideal) S_ .f32 0x00000000#32)) := by
  show StableHlo.after hostOps0 (W0 m ρ c) (Proc.devRef .tc main_v9) = _
  after_results
  rfl

/-- After the first stretch: one over the in-degree. -/
theorem recip_at1 : W1 m ρ c (Proc.devRef .tc main_v11)
    = Host.divf (broadcastInDim S50000 ![] Cert.KernelIdeal.Facts₀.bcast_S_S50000 (constant (F := Ideal) S_ .f32 0x3F800000#32))
        (Cert.Spec.deg (Cert.Spec.dst (m ((c.tc : Thread nD τ).loc main_arg1)))) := by
  show StableHlo.after hostOps0 (W0 m ρ c) (Proc.devRef .tc main_v11) = _
  after_results
  rfl

/-- After the first stretch: the zero the select falls back to. -/
theorem zero_at1 : W1 m ρ c (Proc.devRef .tc main_cst_3) = (constant (F := Ideal) S_ .f32 0x00000000#32) := by
  show StableHlo.after hostOps0 (W0 m ρ c) (Proc.devRef .tc main_cst_3) = _
  after_results

/-- The outlined select and the column broadcast after it, from ANY contents holding the three values the select reads:
    the carriages to and from each buffer's own type cancel. -/
theorem inv_of (V : Valuation τ sig (Elt Ideal)) (P : IVec S50000 1) (I : FVec Ideal S50000 .f32) (Z : FVec Ideal S_ .f32)
    (hP : V (Proc.devRef .tc main_v9) = P) (hI : V (Proc.devRef .tc main_v11) = I) (hZ : V (Proc.devRef .tc main_cst_3) = Z) :
    StableHlo.after hostOps0_2 (StableHlo.after hostOps0_1 V) (Proc.devRef .tc main_v13)
      = broadcastInDim S50000x1 ![0] Cert.KernelIdeal.Facts₀.bcast_S50000_S50000x1_0 (select P I (broadcastInDim S50000 ![] Cert.KernelIdeal.Facts₀.bcast_S_S50000 (id Z))) := by
  after_results
  rw [hP, hI, hZ]
  simp only [Cert.LibLineCuts.ofBuf_toBuf, Cert.LibLineCuts.toBuf_ofBuf]
  rfl

theorem inv_at3 : W3 m ρ c (Proc.devRef .tc main_v13) = Cert.Spec.invDeg (Cert.Spec.dst (m ((c.tc : Thread nD τ).loc main_arg1))) :=
  (inv_of (W1 m ρ c) _ _ _ (pos_at1 m ρ c) (recip_at1 m ρ c) (zero_at1 m ρ c)).trans rfl

end Cert.KernelIdeal.Entry

end
-- ==== Proof.Stretch.lean ====
/-
  The host stretches between the kernel program's regions.

  Between two regions the program computes, on the host, the neighbour sums of the layer just produced —
  a gather of the feature rows at the edges' sources (a number below zero counted from the end) scattered
  and added at the edges' destinations — and lays the next bias out as a row.  Read off the list of host
  operations, the buffer that holds the sums is the network's neighbour-sum operation of the sources, the
  destinations and the features held at the stretch's start, and the bias row is the bias's row form.
-/
import proofs.«175068_j41858751266832_1_alg».proof.Proof.Gen.KernelIdeal.Frame
import proofs.«175068_j41858751266832_1_alg».proof.Proof.Spec
import Idealize.ShloMosaic.Lib.StableHlo.Run

noncomputable section

namespace Cert.KernelIdeal.Entry

open Cert.KernelIdeal Cert.KernelIdeal.Gen Cert.KernelIdeal.Facts₀
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- After the first stretch the 128-wide neighbour sums are those of the first hidden layer. -/
theorem agg_after1 :
    W5 m ρ c (Proc.devRef .tc main_v25)
      = Cert.Spec.agg128 (W4 m ρ c (Proc.devRef .tc main_v1)) (W4 m ρ c (Proc.devRef .tc main_v3))
          (W4 m ρ c (Proc.devRef .tc main_v15)) := by
  show StableHlo.after hostOps1 (W4 m ρ c) (Proc.devRef .tc main_v25) = _
  after_results_simp
  rfl

/-- After the first stretch the second layer's bias lies as a row. -/
theorem row_after1 :
    W5 m ρ c (Proc.devRef .tc main_v26) = Cert.Spec.row256 (W4 m ρ c (Proc.devRef .tc main_arg5)) := by
  show StableHlo.after hostOps1 (W4 m ρ c) (Proc.devRef .tc main_v26) = _
  after_results_simp
  rfl

/-- After the second stretch the 256-wide neighbour sums are those of the second hidden layer. -/
theorem agg_after2 :
    W7 m ρ c (Proc.devRef .tc main_v37)
      = Cert.Spec.agg256 (W6 m ρ c (Proc.devRef .tc main_v1)) (W6 m ρ c (Proc.devRef .tc main_v3))
          (W6 m ρ c (Proc.devRef .tc main_v27)) := by
  show StableHlo.after hostOps2 (W6 m ρ c) (Proc.devRef .tc main_v37) = _
  after_results_simp
  rfl

/-- After the second stretch the third layer's bias lies as a row. -/
theorem row_after2 :
    W7 m ρ c (Proc.devRef .tc main_v38) = Cert.Spec.row256 (W6 m ρ c (Proc.devRef .tc main_arg8)) := by
  show StableHlo.after hostOps2 (W6 m ρ c) (Proc.devRef .tc main_v38) = _
  after_results_simp
  rfl

/-- After the third stretch the 256-wide neighbour sums are those of the third hidden layer. -/
theorem agg_after3 :
    W9 m ρ c (Proc.devRef .tc main_v49)
      = Cert.Spec.agg256 (W8 m ρ c (Proc.devRef .tc main_v1)) (W8 m ρ c (Proc.devRef .tc main_v3))
          (W8 m ρ c (Proc.devRef .tc main_v39)) := by
  show StableHlo.after hostOps3 (W8 m ρ c) (Proc.devRef .tc main_v49) = _
  after_results_simp
  rfl

/-- After the third stretch the fourth layer's bias lies as a row. -/
theorem row_after3 :
    W9 m ρ c (Proc.devRef .tc main_v50) = Cert.Spec.row256 (W8 m ρ c (Proc.devRef .tc main_arg11)) := by
  show StableHlo.after hostOps3 (W8 m ρ c) (Proc.devRef .tc main_v50) = _
  after_results_simp
  rfl

end Cert.KernelIdeal.Entry

end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.LibPlainDot.lean ====
/-
  Plain matrix products, whatever name their dimension numbers are printed under.

  A program prints the dimension numbers of each of its matrix products as a record of its own; for rows × inner
  times inner × columns with no batch axis that record is the library's `DotDims.plain n k d` but for its proof
  field. For any record equal to it, a matrix-unit product into the zero accumulator and a host `dot_general`
  are, at entry (p, c) and over the exact extended reals, the sum over q of lhs (p, q) · rhs (q, c).
-/
import Idealize.ShloMosaic.Lib.ValueIdx
import Idealize.ShloMosaic.PureOps.Ideal.Laws
import proofs.«175068_j41858751266832_1_alg».proof.Proof.LibDense

noncomputable section

open scoped BigOperators

namespace Cert.LibPlainDot

open Idealize.ShloMosaic Idealize.ShloMosaic.ValueIdx

variable {n k d : ℕ}

theorem plain_rank : (DotDims.plain n k d).contr.rank = 1 := rfl
theorem plain_size : (DotDims.plain n k d).contr.size ⟨0, by rw [plain_rank]; omega⟩ = k := rfl

theorem plain_lhs0 (i : (⟨2, ![n, d]⟩ : Shape).Idx) (q : (DotDims.plain n k d).contr.Idx) :
    ((DotDims.plain n k d).lhsIdx i q 0).val = (i 0).val := by
  unfold DotDims.lhsIdx
  rw [dif_neg (show ¬(0 : Fin 2) ∈ (DotDims.plain n k d).lhsBatch from List.not_mem_nil),
    dif_pos (show (0 : Fin 2) ∈ (DotDims.plain n k d).lhsNonContracting from List.mem_cons_self)]
  rfl
theorem plain_lhs1 (i : (⟨2, ![n, d]⟩ : Shape).Idx) (q : (DotDims.plain n k d).contr.Idx) :
    ((DotDims.plain n k d).lhsIdx i q 1).val = (q ⟨0, by rw [plain_rank]; omega⟩).val :=
  (DotDims.plain n k d).lhsIdx_val_of_single rfl i q
theorem plain_rhs0 (i : (⟨2, ![n, d]⟩ : Shape).Idx) (q : (DotDims.plain n k d).contr.Idx) :
    ((DotDims.plain n k d).rhsIdx i q 0).val = (q ⟨0, by rw [plain_rank]; omega⟩).val :=
  (DotDims.plain n k d).rhsIdx_val_of_single rfl i q
theorem plain_rhs1 (i : (⟨2, ![n, d]⟩ : Shape).Idx) (q : (DotDims.plain n k d).contr.Idx) :
    ((DotDims.plain n k d).rhsIdx i q 1).val = (i 1).val := by
  unfold DotDims.rhsIdx
  rw [dif_neg (show ¬(1 : Fin 2) ∈ (DotDims.plain n k d).rhsBatch from List.not_mem_nil),
    dif_pos (show (1 : Fin 2) ∈ (DotDims.plain n k d).rhsNonContracting from List.mem_cons_self)]
  rfl

/-- A matrix-unit product into the zero accumulator under dimension numbers that are the plain ones, at (p, c). -/
theorem matmul_zero_apply {φ₁ φ₂ : FTy} (D : DotDims ⟨2, ![n, k]⟩ ⟨2, ![k, d]⟩ ⟨2, ![n, d]⟩) (hD : D = DotDims.plain n k d)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  subst hD
  exact Cert.LibDense.matmul_zero_apply (DotDims.plain n k d) plain_rank plain_size plain_lhs0 plain_lhs1 plain_rhs0 plain_rhs1
    prec lhs rhs p c

/-- A host `dot_general` under dimension numbers that are the plain ones, at (p, c). -/
theorem dotGeneral_apply {φ₁ φ₂ : FTy} (D : DotDims ⟨2, ![n, k]⟩ ⟨2, ![k, d]⟩ ⟨2, ![n, d]⟩) (hD : D = DotDims.plain n k d)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  subst hD
  exact Cert.LibDense.dotGeneral_apply (DotDims.plain n k d) plain_rank plain_size plain_lhs0 plain_lhs1 plain_rhs0 plain_rhs1
    prec sched lhs rhs p c

end Cert.LibPlainDot

end
-- ==== Proof.LibLayout.lean ====
/-
  Column and row forms of the layout operations, read at an index.

  A length-`a` array viewed as a column `[a, 1]` (by a reshape or by a broadcast along axis 0) holds,
  at `(i, 0)`, the array's entry `i`; viewed as a row `[1, a]` it holds entry `i` at `(0, i)`.  A
  column broadcast over `b` columns holds at `(p, c)` the column's entry `p`; a row broadcast over
  `a` rows holds at `(p, c)` the row's entry `c`.  A scalar broadcast holds the scalar everywhere.
  So the reshape and the broadcast that make a column (or a row) of an array are the same function.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` array broadcast along axis 0 into the column `[a, 1]` reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2))
    (i : Fin a) (u : Fin 1) : broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- The column of an array by a reshape is its column by a broadcast along axis 0. -/
theorem shapeCast_eq_broadcastInDim_col {a : ℕ} (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ (![0] : Fin 1 → Fin 2) h' x := by
  funext j
  obtain ⟨p, q, rfl⟩ : ∃ (p : Fin a) (q : Fin 1), j = ix2 p q := ⟨j 0, j 1, eq_ix2 j⟩
  rw [shapeCast_a_a1_apply, broadcastInDim_a_a1_apply]

/-- An `[a]` array broadcast along axis 1 into the row `[1, a]` reads, at `(u, i)`, the operand at `i`. -/
theorem broadcastInDim_a_1a_apply {a : ℕ} (x : (⟨1, ![a]⟩ : Shape).Idx → α)
    (h : (⟨1, ![a]⟩ : Shape).BroadcastsInDim ⟨2, ![1, a]⟩ (![1] : Fin 1 → Fin 2))
    (u : Fin 1) (i : Fin a) : broadcastInDim ⟨2, ![1, a]⟩ (![1] : Fin 1 → Fin 2) h x (ix2 u i) = x (ix1 i) := by
  refine broadcastInDim_apply _ h x (ix2 u i) (ix1 i) fun ax => ?_
  match ax with
  | ⟨0, _⟩ =>
    show i.val = if a = 1 then 0 else i.val
    split
    · have := i.isLt; omega
    · rfl

/-- The row of an array by a reshape is its row by a broadcast along axis 1. -/
theorem shapeCast_eq_broadcastInDim_row {a : ℕ} (x : (⟨1, ![a]⟩ : Shape).Idx → α)
    (h : (⟨1, ![a]⟩ : Shape).ShapeCasts ⟨2, ![1, a]⟩)
    (h' : (⟨1, ![a]⟩ : Shape).BroadcastsInDim ⟨2, ![1, a]⟩ (![1] : Fin 1 → Fin 2)) :
    shapeCast ⟨2, ![1, a]⟩ x h = broadcastInDim ⟨2, ![1, a]⟩ (![1] : Fin 1 → Fin 2) h' x := by
  funext j
  obtain ⟨p, q, rfl⟩ : ∃ (p : Fin 1) (q : Fin a), j = ix2 p q := ⟨j 0, j 1, eq_ix2 j⟩
  rw [shapeCast_a_1a_apply, broadcastInDim_a_1a_apply]

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (in dimensions 0, 1) to `[a, b]` reads, at `(p, c)`, the column's entry `p`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2))
    (p : Fin a) (c : Fin b) : broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (in dimensions 0, 1) to `[a, b]` reads, at `(p, c)`, the row's entry `c`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2))
    (p : Fin a) (c : Fin b) : broadcastInDim ⟨2, ![a, b]⟩ (![0, 1] : Fin 2 → Fin 2) h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

end Cert.LibLayout

end
-- ==== Proof.Region0.lean ====
/-
  The input layer's region, as one function of whole arrays.

  The region visits twenty-five points.  At point t it stages rows 2000 t … 2000 t + 1999 of the node features, the
  whole weight matrix and the whole bias row, stores max (x · W + b) 0 of them, and writes that block back to the
  same rows of the result.  Entry by entry the block is the input layer of the whole arrays restricted to those
  rows, and the twenty-five blocks fill the 50000 rows: the result array ends holding the input layer of the arrays
  the region was entered with, whatever they are.
-/
import proofs.«175068_j41858751266832_1_alg».proof.Proof.Gen.KernelIdeal.Frame
import proofs.«175068_j41858751266832_1_alg».proof.Proof.Spec
import proofs.«175068_j41858751266832_1_alg».proof.Proof.LibPlainDot
import proofs.«175068_j41858751266832_1_alg».proof.Proof.LibLayout
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- The input layer's product has 2000 rows, inner extent 2 and 128 columns, with no batch axis. -/
theorem dot0_plain : dot_S2000x2_S2x128_S2000x128_1_0_0_1_n_n = DotDims.plain 2000 2 128 := rfl

/-- What the input layer's body stores, entry by entry: the block of rows times the weights, plus the bias row,
    clamped below at zero. -/
theorem pay0_apply (x0 : Vec Ideal S2000x2 .f32) (x1 : Vec Ideal S2x128 .f32) (x2 : Vec Ideal S1x128 .f32)
    (p : Fin 2000) (q : Fin 128) :
    k0_pay1 x0 x1 x2 (ix2 p q)
      = max ((∑ k : Fin 2, x0 (ix2 p k) * x1 (ix2 k q)) + x2 (ix2 (0 : Fin 1) q)) 0 := by
  unfold k0_pay1
  refine (maximumf_apply _ _ _).trans ?_
  refine congrArg₂ max ?_ Ideal.ofBits_zero_f32
  refine (addf_apply _ _ _).trans ?_
  refine congrArg₂ (· + ·) ?_ ?_
  · exact Cert.LibPlainDot.matmul_zero_apply _ dot0_plain none _ _ p q
  · refine (broadcastTo_1b_ab_apply _ _ p q).trans ?_
    rw [shapeCast_self]

theorem hz0 : (![0, 0] : Fin 2 → Nat) = fun _ => 0 := funext fun a => by fin_cases a <;> rfl

/-- The block indices over the grid: the row windows move one block per point, the weights and the bias stay. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The first window's block at point `t` is rows `2000 t … 2000 t + 1999` of the node features. -/
theorem iblk0_0_apply (c : Dev nD) (t : Fin cfg0.N) (y : S2000x2.Idx) (i : S50000x2.Idx)
    (h0 : (i 0).val = t.val * 2000 + (y 0).val) (h1 : (i 1).val = (y 1).val) :
    (iblk0 V c 0 t : Vec Ideal S2000x2 .f32) y = (V c main_arg0 : S50000x2.Idx → Elt Ideal .f32) i := by
  obtain ⟨e0, e1, -⟩ := idx_facts0 t
  unfold iblk0
  rw [View.read_apply]
  show V c main_arg0 _ = V c main_arg0 _
  refine congrArg _ ?_
  funext a
  apply Fin.ext
  match a with
  | ⟨0, _⟩ => show win0_0.index t 0 * 2000 + 1 * (y 0).val = (i 0).val; rw [e0, h0]; omega
  | ⟨1, _⟩ => show win0_0.index t 1 * 2 + 1 * (y 1).val = (i 1).val; rw [e1, h1]; omega

/-- The second window's block at every point is the whole weight matrix. -/
theorem iblk0_1_apply (c : Dev nD) (t : Fin cfg0.N) (y : S2x128.Idx) :
    (iblk0 V c 1 t : Vec Ideal S2x128 .f32) y = (V c main_arg2 : S2x128.Idx → Elt Ideal .f32) y := by
  obtain ⟨-, -, e2, e3, -⟩ := idx_facts0 t
  unfold iblk0
  rw [View.read_apply]
  show V c main_arg2 _ = V c main_arg2 _
  refine congrArg _ ?_
  funext a
  apply Fin.ext
  match a with
  | ⟨0, _⟩ => show win0_1.index t 0 * 2 + 1 * (y 0).val = (y 0).val; rw [e2]; omega
  | ⟨1, _⟩ => show win0_1.index t 1 * 128 + 1 * (y 1).val = (y 1).val; rw [e3]; omega

/-- The third window's block at every point is the whole bias row. -/
theorem iblk0_2_apply (c : Dev nD) (t : Fin cfg0.N) (y : S1x128.Idx) :
    (iblk0 V c 2 t : Vec Ideal S1x128 .f32) y = (V c main_v14 : S1x128.Idx → Elt Ideal .f32) y := by
  obtain ⟨-, -, -, -, e4, e5, -⟩ := idx_facts0 t
  unfold iblk0
  rw [View.read_apply]
  show V c main_v14 _ = V c main_v14 _
  refine congrArg _ ?_
  funext a
  apply Fin.ext
  match a with
  | ⟨0, _⟩ => show win0_2.index t 0 * 1 + 1 * (y 0).val = (y 0).val; rw [e4]; omega
  | ⟨1, _⟩ => show win0_2.index t 1 * 128 + 1 * (y 1).val = (y 1).val; rw [e5]; omega

/-- What point `t` writes back is rows `2000 t … 2000 t + 1999` of the input layer of the whole arrays. -/
theorem flushed0_eq (c : Dev nD) (t : Fin cfg0.N) :
    (dat0 (F := Ideal) V c).flushed 3 t = ((cfg0.win 3).blk t).view.read (Elt Ideal)
      (Cert.Spec.inProj (V c main_arg0) (V c main_arg2) (V c main_v14)) := by
  show (cfg0.win 3).cut (grid0.coords t) ((dat0 (F := Ideal) V c).after 3 t) = _
  rw [after0_3]
  unfold out0_3
  rw [View.canon_unit_zero hz0]
  simp only [View.ld_unit_zero (S := S2000x2) hz0, View.ld_unit_zero (S := S2x128) hz0, View.ld_unit_zero (S := S1x128) hz0]
  funext j
  have hj0 : (j 0).val < 2000 := (j 0).isLt
  have hj1 : (j 1).val < 128 := (j 1).isLt
  have ht : t.val < 25 := lt_of_lt_of_eq t.isLt (N_0 : cfg0.N = 25)
  obtain ⟨-, -, -, -, -, -, e6, e7⟩ := idx_facts0 t
  have hx : (win0 3).xinj (grid0.coords t) j = ix2 (⟨(j 0).val, hj0⟩ : Fin 2000) (⟨(j 1).val, hj1⟩ : Fin 128) :=
    funext fun a => by match a with | ⟨0, _⟩ => rfl | ⟨1, _⟩ => rfl
  have hemb : ((View.whole main_v15).slice ((win0 3).rect t)).emb j
      = ix2 (⟨t.val * 2000 + (j 0).val, by omega⟩ : Fin 50000) (⟨(j 1).val, hj1⟩ : Fin 128) :=
    funext fun a => Fin.ext (by
      match a with
      | ⟨0, _⟩ => show win0_3.index t 0 * 2000 + 1 * (j 0).val = t.val * 2000 + (j 0).val; rw [e6]; omega
      | ⟨1, _⟩ => show win0_3.index t 1 * 128 + 1 * (j 1).val = (j 1).val; rw [e7]; omega)
  show k0_pay1 (iblk0 V c 0 t) (iblk0 V c 1 t) (iblk0 V c 2 t) ((win0 3).xinj (grid0.coords t) j) = _
  refine (congrArg (k0_pay1 (iblk0 V c 0 t) (iblk0 V c 1 t) (iblk0 V c 2 t)) hx).trans ?_
  refine (pay0_apply (iblk0 V c 0 t) (iblk0 V c 1 t) (iblk0 V c 2 t) _ _).trans ?_
  rw [View.read_apply]
  refine Eq.trans ?_ (congrArg (Cert.Spec.inProj (V c main_arg0) (V c main_arg2) (V c main_v14)) hemb).symm
  refine congrArg₂ max (congrArg₂ (· + ·) (Finset.sum_congr rfl fun k _ => congrArg₂ (· * ·) ?_ ?_) ?_) rfl
  · exact iblk0_0_apply V c t _ _ rfl rfl
  · exact iblk0_1_apply V c t _
  · exact iblk0_2_apply V c t _

/-- An index of the result array lies in point `t`'s block iff each coordinate is in the block's range on its axis. -/
theorem mem_blk0 (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v15).slice (win0_3.rect t)).set ↔ _
  rw [View.set_slice_whole, Rect.mem_set_unit]
  exact Iff.rfl

/-- The twenty-five blocks of 2000 rows fill the 50000 rows (row `r` lies in block `r / 2000`), so the result array
    ends holding the input layer of the whole arrays. -/
theorem final0 (c : Dev nD) : (Gen.dat0 (F := Ideal) V c).arrAt 3 cfg0.N
      = Cert.Spec.inProj (V c main_arg0) (V c main_arg2) (V c main_v14) :=
  (dat0 (F := Ideal) V c).arrAt_eq_of_cover 3 (Cert.Spec.inProj (V c main_arg0) (V c main_arg2) (V c main_v14))
    (fun t _ => flushed0_eq V c t) fun i => by
    have hi0 : (i 0).val < 50000 := (i 0).isLt
    have hi1 : (i 1).val < 128 := (i 1).isLt
    have hN : cfg0.N = 25 := N_0
    refine ⟨⟨(i 0).val / 2000, by rw [hN]; omega⟩, flush0_3 _, ?_⟩
    obtain ⟨-, -, -, -, -, -, e6, e7⟩ := idx_facts0 ⟨(i 0).val / 2000, by rw [hN]; omega⟩
    rw [mem_blk0]
    intro a
    match a with
    | ⟨0, _⟩ =>
      show win0_3.index _ 0 * 2000 ≤ (i 0).val ∧ (i 0).val < win0_3.index _ 0 * 2000 + 2000
      rw [e6]; show (i 0).val / 2000 * 2000 ≤ (i 0).val ∧ (i 0).val < (i 0).val / 2000 * 2000 + 2000; omega
    | ⟨1, _⟩ =>
      show win0_3.index _ 1 * 128 ≤ (i 1).val ∧ (i 1).val < win0_3.index _ 1 * 128 + 128
      rw [e7]; omega

end Cert.KernelIdeal.RegionValue

end
-- ==== Proof.Region1.lean ====
/-
  The first neighbour-mean layer's region, as one function of whole arrays.

  The region visits twenty-five points.  At point t it stages rows 2000 t … 2000 t + 1999 of the neighbour sums, of the
  features and of the inverse-degree column, the two whole weight matrices (128 by 256) and the whole bias row, stores
  max ((a ∘ s) · Wl + h · Wr + b) 0 of them, where a ∘ s scales row p of the neighbour sums by entry p of the column,
  and writes that block back to the same rows of the result.  Entry by entry the block is the layer of the whole
  arrays restricted to those rows, and the twenty-five blocks fill the 50000 rows: the result array ends holding the
  layer of the arrays the region was entered with, whatever they are.
-/
import proofs.«175068_j41858751266832_1_alg».proof.Proof.Gen.KernelIdeal.Frame
import proofs.«175068_j41858751266832_1_alg».proof.Proof.Spec
import proofs.«175068_j41858751266832_1_alg».proof.Proof.LibPlainDot
import proofs.«175068_j41858751266832_1_alg».proof.Proof.LibLayout
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- A layer's two products have 2000 rows, inner extent 128 and 256 columns, with no batch axis. -/
theorem dot1_plain : dot_S2000x128_S128x256_S2000x256_1_0_0_1_n_n = DotDims.plain 2000 128 256 := rfl

/-- What the layer's body stores, entry by entry: the neighbour sums scaled row by row, times the left weights,
    plus the features times the right weights, plus the bias row, clamped below at zero. -/
theorem pay1_apply (a : Vec Ideal S2000x128 .f32) (s : Vec Ideal S2000x1 .f32) (h : Vec Ideal S2000x128 .f32)
    (Wl Wr : Vec Ideal S128x256 .f32) (b : Vec Ideal S1x256 .f32) (p : Fin 2000) (q : Fin 256) :
    k1_pay1 a s h Wl Wr b (ix2 p q)
      = max (((∑ k : Fin 128, (a (ix2 p k) * s (ix2 p (0 : Fin 1))) * Wl (ix2 k q))
          + (∑ k : Fin 128, h (ix2 p k) * Wr (ix2 k q))) + b (ix2 (0 : Fin 1) q)) 0 := by
  unfold k1_pay1
  refine (maximumf_apply _ _ _).trans ?_
  refine congrArg₂ max ?_ Ideal.ofBits_zero_f32
  refine (addf_apply _ _ _).trans ?_
  refine congrArg₂ (· + ·) ?_ ?_
  · refine (addf_apply _ _ _).trans ?_
    refine congrArg₂ (· + ·) ?_ ?_
    · refine (Cert.LibPlainDot.matmul_zero_apply _ dot1_plain none _ _ p q).trans ?_
      refine Finset.sum_congr rfl fun k _ => congrArg₂ (· * ·) ?_ rfl
      refine (mulf_apply _ _ _).trans ?_
      refine congrArg₂ (· * ·) ?_ ?_
      · rw [shapeCast_self]
      · refine (Cert.LibLayout.broadcastTo_a1_ab_apply _ _ p k).trans ?_
        rw [shapeCast_self]
    · refine (Cert.LibPlainDot.matmul_zero_apply _ dot1_plain none _ _ p q).trans ?_
      refine Finset.sum_congr rfl fun k _ => congrArg₂ (· * ·) ?_ rfl
      show shapeCast S2000x128 h shapeCasts_S2000x128_S2000x128 (ix2 p k) = h (ix2 p k)
      rw [shapeCast_self]
  · refine (broadcastTo_1b_ab_apply _ _ p q).trans ?_
    rw [shapeCast_self]

theorem hz1 : (![0, 0] : Fin 2 → Nat) = fun _ => 0 := funext fun a => by fin_cases a <;> rfl

/-- The block indices over the grid: the three row windows and the result move one block per point, the weights and the
    bias stay. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

/-- Window 0's block at point `t` is rows `2000 t … 2000 t + 1999` of the neighbour sums. -/
theorem iblk1_0_apply (c : Dev nD) (t : Fin cfg1.N) (y : S2000x128.Idx) (i : S50000x128.Idx)
    (h0 : (i 0).val = t.val * 2000 + (y 0).val) (h1 : (i 1).val = (y 1).val) :
    (iblk1 V c 0 t : Vec Ideal S2000x128 .f32) y = (V c main_v25 : S50000x128.Idx → Elt Ideal .f32) i := by
  have e := idx_facts1 t
  have e0 : win1_0.index t (0 : Fin 2) = t.val := e.1
  have e1 : win1_0.index t (1 : Fin 2) = 0 := e.2.1
  unfold iblk1
  rw [View.read_apply]
  show V c main_v25 _ = V c main_v25 _
  refine congrArg _ ?_
  funext a
  apply Fin.ext
  match a with
  | ⟨0, _⟩ => show win1_0.index t 0 * 2000 + 1 * (y 0).val = (i 0).val; rw [e0, h0]; omega
  | ⟨1, _⟩ => show win1_0.index t 1 * 128 + 1 * (y 1).val = (i 1).val; rw [e1, h1]; omega

/-- Window 1's block at point `t` is rows `2000 t … 2000 t + 1999` of the features. -/
theorem iblk1_1_apply (c : Dev nD) (t : Fin cfg1.N) (y : S2000x128.Idx) (i : S50000x128.Idx)
    (h0 : (i 0).val = t.val * 2000 + (y 0).val) (h1 : (i 1).val = (y 1).val) :
    (iblk1 V c 1 t : Vec Ideal S2000x128 .f32) y = (V c main_v15 : S50000x128.Idx → Elt Ideal .f32) i := by
  have e := idx_facts1 t
  have e0 : win1_1.index t (0 : Fin 2) = t.val := e.2.2.1
  have e1 : win1_1.index t (1 : Fin 2) = 0 := e.2.2.2.1
  unfold iblk1
  rw [View.read_apply]
  show V c main_v15 _ = V c main_v15 _
  refine congrArg _ ?_
  funext a
  apply Fin.ext
  match a with
  | ⟨0, _⟩ => show win1_1.index t 0 * 2000 + 1 * (y 0).val = (i 0).val; rw [e0, h0]; omega
  | ⟨1, _⟩ => show win1_1.index t 1 * 128 + 1 * (y 1).val = (i 1).val; rw [e1, h1]; omega

/-- Window 2's block at point `t` is rows `2000 t … 2000 t + 1999` of the inverse-degree column. -/
theorem iblk1_2_apply (c : Dev nD) (t : Fin cfg1.N) (y : S2000x1.Idx) (i : S50000x1.Idx)
    (h0 : (i 0).val = t.val * 2000 + (y 0).val) (h1 : (i 1).val = (y 1).val) :
    (iblk1 V c 2 t : Vec Ideal S2000x1 .f32) y = (V c main_v13 : S50000x1.Idx → Elt Ideal .f32) i := by
  have e := idx_facts1 t
  have e0 : win1_2.index t (0 : Fin 2) = t.val := e.2.2.2.2.1
  have e1 : win1_2.index t (1 : Fin 2) = 0 := e.2.2.2.2.2.1
  unfold iblk1
  rw [View.read_apply]
  show V c main_v13 _ = V c main_v13 _
  refine congrArg _ ?_
  funext a
  apply Fin.ext
  match a with
  | ⟨0, _⟩ => show win1_2.index t 0 * 2000 + 1 * (y 0).val = (i 0).val; rw [e0, h0]; omega
  | ⟨1, _⟩ => show win1_2.index t 1 * 1 + 1 * (y 1).val = (i 1).val; rw [e1, h1]; omega

/-- Window 3's block at every point is the whole of the left weights. -/
theorem iblk1_3_apply (c : Dev nD) (t : Fin cfg1.N) (y : S128x256.Idx) :
    (iblk1 V c 3 t : Vec Ideal S128x256 .f32) y = (V c main_arg4 : S128x256.Idx → Elt Ideal .f32) y := by
  have e := idx_facts1 t
  have e0 : win1_3.index t (0 : Fin 2) = 0 := e.2.2.2.2.2.2.1
  have e1 : win1_3.index t (1 : Fin 2) = 0 := e.2.2.2.2.2.2.2.1
  unfold iblk1
  rw [View.read_apply]
  show V c main_arg4 _ = V c main_arg4 _
  refine congrArg _ ?_
  funext a
  apply Fin.ext
  match a with
  | ⟨0, _⟩ => show win1_3.index t 0 * 128 + 1 * (y 0).val = (y 0).val; rw [e0]; omega
  | ⟨1, _⟩ => show win1_3.index t 1 * 256 + 1 * (y 1).val = (y 1).val; rw [e1]; omega

/-- Window 4's block at every point is the whole of the right weights. -/
theorem iblk1_4_apply (c : Dev nD) (t : Fin cfg1.N) (y : S128x256.Idx) :
    (iblk1 V c 4 t : Vec Ideal S128x256 .f32) y = (V c main_arg6 : S128x256.Idx → Elt Ideal .f32) y := by
  have e := idx_facts1 t
  have e0 : win1_4.index t (0 : Fin 2) = 0 := e.2.2.2.2.2.2.2.2.1
  have e1 : win1_4.index t (1 : Fin 2) = 0 := e.2.2.2.2.2.2.2.2.2.1
  unfold iblk1
  rw [View.read_apply]
  show V c main_arg6 _ = V c main_arg6 _
  refine congrArg _ ?_
  funext a
  apply Fin.ext
  match a with
  | ⟨0, _⟩ => show win1_4.index t 0 * 128 + 1 * (y 0).val = (y 0).val; rw [e0]; omega
  | ⟨1, _⟩ => show win1_4.index t 1 * 256 + 1 * (y 1).val = (y 1).val; rw [e1]; omega

/-- Window 5's block at every point is the whole of the bias row. -/
theorem iblk1_5_apply (c : Dev nD) (t : Fin cfg1.N) (y : S1x256.Idx) :
    (iblk1 V c 5 t : Vec Ideal S1x256 .f32) y = (V c main_v26 : S1x256.Idx → Elt Ideal .f32) y := by
  have e := idx_facts1 t
  have e0 : win1_5.index t (0 : Fin 2) = 0 := e.2.2.2.2.2.2.2.2.2.2.1
  have e1 : win1_5.index t (1 : Fin 2) = 0 := e.2.2.2.2.2.2.2.2.2.2.2.1
  unfold iblk1
  rw [View.read_apply]
  show V c main_v26 _ = V c main_v26 _
  refine congrArg _ ?_
  funext a
  apply Fin.ext
  match a with
  | ⟨0, _⟩ => show win1_5.index t 0 * 1 + 1 * (y 0).val = (y 0).val; rw [e0]; omega
  | ⟨1, _⟩ => show win1_5.index t 1 * 256 + 1 * (y 1).val = (y 1).val; rw [e1]; omega

/-- What point `t` writes back is rows `2000 t … 2000 t + 1999` of the layer of the whole arrays. -/
theorem flushed1_eq (c : Dev nD) (t : Fin cfg1.N) :
    (dat1 (F := Ideal) V c).flushed 6 t = ((cfg1.win 6).blk t).view.read (Elt Ideal)
      (Cert.Spec.sage (V c main_v25) (V c main_v15) (V c main_v13) (V c main_arg4) (V c main_arg6) (V c main_v26)) := by
  show (cfg1.win 6).cut (grid1.coords t) ((dat1 (F := Ideal) V c).after 6 t) = _
  rw [after1_6]
  unfold out1_6
  rw [View.canon_unit_zero hz1]
  simp only [View.ld_unit_zero (S := S2000x128) hz1, View.ld_unit_zero (S := S2000x1) hz1, View.ld_unit_zero (S := S128x256) hz1,
    View.ld_unit_zero (S := S1x256) hz1]
  funext j
  have hj0 : (j 0).val < 2000 := (j 0).isLt
  have hj1 : (j 1).val < 256 := (j 1).isLt
  have ht : t.val < 25 := lt_of_lt_of_eq t.isLt (N_1 : cfg1.N = 25)
  have e := idx_facts1 t
  have e6 : win1_6.index t (0 : Fin 2) = t.val := e.2.2.2.2.2.2.2.2.2.2.2.2.1
  have e7 : win1_6.index t (1 : Fin 2) = 0 := e.2.2.2.2.2.2.2.2.2.2.2.2.2
  have hx : (win1 6).xinj (grid1.coords t) j = ix2 (⟨(j 0).val, hj0⟩ : Fin 2000) (⟨(j 1).val, hj1⟩ : Fin 256) :=
    funext fun a => by match a with | ⟨0, _⟩ => rfl | ⟨1, _⟩ => rfl
  have hemb : ((View.whole main_v27).slice ((win1 6).rect t)).emb j
      = ix2 (⟨t.val * 2000 + (j 0).val, by omega⟩ : Fin 50000) (⟨(j 1).val, hj1⟩ : Fin 256) :=
    funext fun a => Fin.ext (by
      match a with
      | ⟨0, _⟩ => show win1_6.index t 0 * 2000 + 1 * (j 0).val = t.val * 2000 + (j 0).val; rw [e6]; omega
      | ⟨1, _⟩ => show win1_6.index t 1 * 256 + 1 * (j 1).val = (j 1).val; rw [e7]; omega)
  show k1_pay1 (iblk1 V c 0 t) (iblk1 V c 2 t) (iblk1 V c 1 t) (iblk1 V c 3 t) (iblk1 V c 4 t) (iblk1 V c 5 t) ((win1 6).xinj (grid1.coords t) j) = _
  refine (congrArg (k1_pay1 (iblk1 V c 0 t) (iblk1 V c 2 t) (iblk1 V c 1 t) (iblk1 V c 3 t) (iblk1 V c 4 t) (iblk1 V c 5 t)) hx).trans ?_
  refine (pay1_apply (iblk1 V c 0 t) (iblk1 V c 2 t) (iblk1 V c 1 t) (iblk1 V c 3 t) (iblk1 V c 4 t) (iblk1 V c 5 t) _ _).trans ?_
  rw [View.read_apply]
  refine Eq.trans ?_ (congrArg (Cert.Spec.sage (V c main_v25) (V c main_v15) (V c main_v13) (V c main_arg4) (V c main_arg6) (V c main_v26)) hemb).symm
  refine congrArg₂ max (congrArg₂ (· + ·) (congrArg₂ (· + ·)
    (Finset.sum_congr rfl fun k _ => congrArg₂ (· * ·) (congrArg₂ (· * ·) ?_ ?_) ?_)
    (Finset.sum_congr rfl fun k _ => congrArg₂ (· * ·) ?_ ?_)) ?_) rfl
  · exact iblk1_0_apply V c t _ _ rfl rfl
  · exact iblk1_2_apply V c t _ _ rfl rfl
  · exact iblk1_3_apply V c t _
  · exact iblk1_1_apply V c t _ _ rfl rfl
  · exact iblk1_4_apply V c t _
  · exact iblk1_5_apply V c t _

/-- An index of the result array lies in point `t`'s block iff each coordinate is in the block's range on its axis. -/
theorem mem_blk1 (t : Fin cfg1.N) (i : S50000x256.Idx) :
    i ∈ ((cfg1.win 6).blk t).view.set ↔ ∀ a : Fin 2, win1_6.index t a * S2000x256.size a ≤ (i a).val
      ∧ (i a).val < win1_6.index t a * S2000x256.size a + S2000x256.size a := by
  show i ∈ ((View.whole main_v27).slice (win1_6.rect t)).set ↔ _
  rw [View.set_slice_whole, Rect.mem_set_unit]
  exact Iff.rfl

/-- The twenty-five blocks of 2000 rows fill the 50000 rows (row `r` lies in block `r / 2000`), so the result array
    ends holding the layer of the whole arrays. -/
theorem final1 (c : Dev nD) : (Gen.dat1 (F := Ideal) V c).arrAt 6 cfg1.N
      = Cert.Spec.sage (V c main_v25) (V c main_v15) (V c main_v13) (V c main_arg4) (V c main_arg6) (V c main_v26) :=
  (dat1 (F := Ideal) V c).arrAt_eq_of_cover 6 (Cert.Spec.sage (V c main_v25) (V c main_v15) (V c main_v13) (V c main_arg4) (V c main_arg6) (V c main_v26))
    (fun t _ => flushed1_eq V c t) fun i => by
    have hi0 : (i 0).val < 50000 := (i 0).isLt
    have hi1 : (i 1).val < 256 := (i 1).isLt
    have hN : cfg1.N = 25 := N_1
    refine ⟨⟨(i 0).val / 2000, by rw [hN]; omega⟩, flush1_6 _, ?_⟩
    have e := idx_facts1 ⟨(i 0).val / 2000, by rw [hN]; omega⟩
    have e6 := e.2.2.2.2.2.2.2.2.2.2.2.2.1
    have e7 := e.2.2.2.2.2.2.2.2.2.2.2.2.2
    rw [mem_blk1]
    intro a
    match a with
    | ⟨0, _⟩ =>
      show win1_6.index _ 0 * 2000 ≤ (i 0).val ∧ (i 0).val < win1_6.index _ 0 * 2000 + 2000
      rw [e6]; show (i 0).val / 2000 * 2000 ≤ (i 0).val ∧ (i 0).val < (i 0).val / 2000 * 2000 + 2000; omega
    | ⟨1, _⟩ =>
      show win1_6.index _ 1 * 256 ≤ (i 1).val ∧ (i 1).val < win1_6.index _ 1 * 256 + 256
      rw [e7]; omega

end Cert.KernelIdeal.RegionValue

end
-- ==== Proof.Region2.lean ====
/-
  The second neighbour-mean layer's region, as one function of whole arrays.

  The region visits twenty-five points.  At point t it stages rows 2000 t … 2000 t + 1999 of the neighbour sums, of the
  features and of the inverse-degree column, the two whole weight matrices (256 by 256) and the whole bias row, stores
  max ((a ∘ s) · Wl + h · Wr + b) 0 of them, where a ∘ s scales row p of the neighbour sums by entry p of the column,
  and writes that block back to the same rows of the result.  Entry by entry the block is the layer of the whole
  arrays restricted to those rows, and the twenty-five blocks fill the 50000 rows: the result array ends holding the
  layer of the arrays the region was entered with, whatever they are.
-/
import proofs.«175068_j41858751266832_1_alg».proof.Proof.Gen.KernelIdeal.Frame
import proofs.«175068_j41858751266832_1_alg».proof.Proof.Spec
import proofs.«175068_j41858751266832_1_alg».proof.Proof.LibPlainDot
import proofs.«175068_j41858751266832_1_alg».proof.Proof.LibLayout
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- A layer's two products have 2000 rows, inner extent 256 and 256 columns, with no batch axis. -/
theorem dot2_plain : dot_S2000x256_S256x256_S2000x256_1_0_0_1_n_n = DotDims.plain 2000 256 256 := rfl

/-- What the layer's body stores, entry by entry: the neighbour sums scaled row by row, times the left weights,
    plus the features times the right weights, plus the bias row, clamped below at zero. -/
theorem pay2_apply (a : Vec Ideal S2000x256 .f32) (s : Vec Ideal S2000x1 .f32) (h : Vec Ideal S2000x256 .f32)
    (Wl Wr : Vec Ideal S256x256 .f32) (b : Vec Ideal S1x256 .f32) (p : Fin 2000) (q : Fin 256) :
    k2_pay1 a s h Wl Wr b (ix2 p q)
      = max (((∑ k : Fin 256, (a (ix2 p k) * s (ix2 p (0 : Fin 1))) * Wl (ix2 k q))
          + (∑ k : Fin 256, h (ix2 p k) * Wr (ix2 k q))) + b (ix2 (0 : Fin 1) q)) 0 := by
  unfold k2_pay1
  refine (maximumf_apply _ _ _).trans ?_
  refine congrArg₂ max ?_ Ideal.ofBits_zero_f32
  refine (addf_apply _ _ _).trans ?_
  refine congrArg₂ (· + ·) ?_ ?_
  · refine (addf_apply _ _ _).trans ?_
    refine congrArg₂ (· + ·) ?_ ?_
    · refine (Cert.LibPlainDot.matmul_zero_apply _ dot2_plain none _ _ p q).trans ?_
      refine Finset.sum_congr rfl fun k _ => congrArg₂ (· * ·) ?_ rfl
      refine (mulf_apply _ _ _).trans ?_
      refine congrArg₂ (· * ·) ?_ ?_
      · rw [shapeCast_self]
      · refine (Cert.LibLayout.broadcastTo_a1_ab_apply _ _ p k).trans ?_
        rw [shapeCast_self]
    · refine (Cert.LibPlainDot.matmul_zero_apply _ dot2_plain none _ _ p q).trans ?_
      refine Finset.sum_congr rfl fun k _ => congrArg₂ (· * ·) ?_ rfl
      show shapeCast S2000x256 h shapeCasts_S2000x256_S2000x256 (ix2 p k) = h (ix2 p k)
      rw [shapeCast_self]
  · refine (broadcastTo_1b_ab_apply _ _ p q).trans ?_
    rw [shapeCast_self]

theorem hz2 : (![0, 0] : Fin 2 → Nat) = fun _ => 0 := funext fun a => by fin_cases a <;> rfl

/-- The block indices over the grid: the three row windows and the result move one block per point, the weights and the
    bias stay. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

variable (V : (c : Dev nD) → (b : Ref sig .tc) → Buf (Elt Ideal) ((c : Thread nD τ).loc b))

/-- Window 0's block at point `t` is rows `2000 t … 2000 t + 1999` of the neighbour sums. -/
theorem iblk2_0_apply (c : Dev nD) (t : Fin cfg2.N) (y : S2000x256.Idx) (i : S50000x256.Idx)
    (h0 : (i 0).val = t.val * 2000 + (y 0).val) (h1 : (i 1).val = (y 1).val) :
    (iblk2 V c 0 t : Vec Ideal S2000x256 .f32) y = (V c main_v37 : S50000x256.Idx → Elt Ideal .f32) i := by
  have e := idx_facts2 t
  have e0 : win2_0.index t (0 : Fin 2) = t.val := e.1
  have e1 : win2_0.index t (1 : Fin 2) = 0 := e.2.1
  unfold iblk2
  rw [View.read_apply]
  show V c main_v37 _ = V c main_v37 _
  refine congrArg _ ?_
  funext a
  apply Fin.ext
  match a with
  | ⟨0, _⟩ => show win2_0.index t 0 * 2000 + 1 * (y 0).val = (i 0).val; rw [e0, h0]; omega
  | ⟨1, _⟩ => show win2_0.index t 1 * 256 + 1 * (y 1).val = (i 1).val; rw [e1, h1]; omega

/-- Window 1's block at point `t` is rows `2000 t … 2000 t + 1999` of the features. -/
theorem iblk2_1_apply (c : Dev nD) (t : Fin cfg2.N) (y : S2000x256.Idx) (i : S50000x256.Idx)
    (h0 : (i 0).val = t.val * 2000 + (y 0).val) (h1 : (i 1).val = (y 1).val) :
    (iblk2 V c 1 t : Vec Ideal S2000x256 .f32) y = (V c main_v27 : S50000x256.Idx → Elt Ideal .f32) i := by
  have e := idx_facts2 t
  have e0 : win2_1.index t (0 : Fin 2) = t.val := e.2.2.1
  have e1 : win2_1.index t (1 : Fin 2) = 0 := e.2.2.2.1
  unfold iblk2
  rw [View.read_apply]
  show V c main_v27 _ = V c main_v27 _
  refine congrArg _ ?_
  funext a
  apply Fin.ext
  match a with
  | ⟨0, _⟩ => show win2_1.index t 0 * 2000 + 1 * (y 0).val = (i 0).val; rw [e0, h0]; omega
  | ⟨1, _⟩ => show win2_1.index t 1 * 256 + 1 * (y 1).val = (i 1).val; rw [e1, h1]; omega

/-- Window 2's block at point `t` is rows `2000 t … 2000 t + 1999` of the inverse-degree column. -/
theorem iblk2_2_apply (c : Dev nD) (t : Fin cfg2.N) (y : S2000x1.Idx) (i : S50000x1.Idx)
    (h0 : (i 0).val = t.val * 2000 + (y 0).val) (h1 : (i 1).val = (y 1).val) :
    (iblk2 V c 2 t : Vec Ideal S2000x1 .f32) y = (V c main_v13 : S50000x1.Idx → Elt Ideal .f32) i := by
  have e := idx_facts2 t
  have e0 : win2_2.index t (0 : Fin 2) = t.val := e.2.2.2.2.1
  have e1 : win2_2.index t (1 : Fin 2) = 0 := e.2.2.2.2.2.1
  unfold iblk2
  rw [View.read_apply]
  show V c main_v13 _ = V c main_v13 _
  refine congrArg _ ?_
  funext a
  apply Fin.ext
  match a with
  | ⟨0, _⟩ => show win2_2.index t 0 * 2000 + 1 * (y 0).val = (i 0).val; rw [e0, h0]; omega
  | ⟨1, _⟩ => show win2_2.index t 1 * 1 + 1 * (y 1).val = (i 1).val; rw [e1, h1]; omega

/-- Window 3's block at every point is the whole of the left weights. -/
theorem iblk2_3_apply (c : Dev nD) (t : Fin cfg2.N) (y : S256x256.Idx) :
    (iblk2 V c 3 t : Vec Ideal S256x256 .f32) y = (V c main_arg7 : S256x256.Idx → Elt Ideal .f32) y := by
  have e := idx_facts2 t
  have e0 : win2_3.index t (0 : Fin 2) = 0 := e.2.2.2.2.2.2.1
  have e1 : win2_3.index t (1 : Fin 2) = 0 := e.2.2.2.2.2.2.2.1
  unfold iblk2
  rw [View.read_apply]
  show V c main_arg7 _ = V c main_arg7 _
  refine congrArg _ ?_
  funext a
  apply Fin.ext
  match a with
  | ⟨0, _⟩ => show win2_3.index t 0 * 256 + 1 * (y 0).val = (y 0).val; rw [e0]; omega
  | ⟨1, _⟩ => show win2_3.index t 1 * 256 + 1 * (y 1).val = (y 1).val; rw [e1]; omega

/-- Window 4's block at every point is the whole of the right weights. -/
theorem iblk2_4_apply (c : Dev nD) (t : Fin cfg2.N) (y : S256x256.Idx) :
    (iblk2 V c 4 t : Vec Ideal S256x256 .f32) y = (V c main_arg9 : S256x256.Idx → Elt Ideal .f32) y := by
  have e := idx_facts2 t
  have e0 : win2_4.index t (0 : Fin 2) = 0 := e.2.2.2.2.2.2.2.2.1
  have e1 : win2_4.index t (1 : Fin 2) = 0 := e.2.2.2.2.2.2.2.2.2.1
  unfold iblk2
  rw [View.read_apply]
  show V c main_arg9 _ = V c main_arg9 _
  refine congrArg _ ?_
  funext a
  apply Fin.ext
  match a with
  | ⟨0, _⟩ => show win2_4.index t 0 * 256 + 1 * (y 0).val = (y 0).val; rw [e0]; omega
  | ⟨1, _⟩ => show win2_4.index t 1 * 256 + 1 * (y 1).val = (y 1).val; rw [e1]; omega

/-- Window 5's block at every point is the whole of the bias row. -/
theorem iblk2_5_apply (c : Dev nD) (t : Fin cfg2.N) (y : S1x256.Idx) :
    (iblk2 V c 5 t : Vec Ideal S1x256 .f32) y = (V c main_v38 : S1x256.Idx → Elt Ideal .f32) y := by
  have e := idx_facts2 t
  have e0 : win2_5.index t (0 : Fin 2) = 0 := e.2.2.2.2.2.2.2.2.2.2.1
  have e1 : win2_5.index t (1 : Fin 2) = 0 := e.2.2.2.2.2.2.2.2.2.2.2.1
  unfold iblk2
  rw [View.read_apply]
  show V c main_v38 _ = V c main_v38 _
  refine congrArg _ ?_
  funext a
  apply Fin.ext
  match a with
  | ⟨0, _⟩ => show win2_5.index t 0 * 1 + 1 * (y 0).val = (y 0).val; rw [e0]; omega
  | ⟨1, _⟩ => show win2_5.index t 1 * 256 + 1 * (y 1).val = (y 1).val; rw [e1]; omega

/-- What point `t` writes back is rows `2000 t … 2000 t + 1999` of the layer of the whole arrays. -/
theorem flushed2_eq (c : Dev nD) (t : Fin cfg2.N) :
    (dat2 (F := Ideal) V c).flushed 6 t = ((cfg2.win 6).blk t).view.read (Elt Ideal)
      (Cert.Spec.sage (V c main_v37) (V c main_v27) (V c main_v13) (V c main_arg7) (V c main_arg9) (V c main_v38)) := by
  show (cfg2.win 6).cut (grid2.coords t) ((dat2 (F := Ideal) V c).after 6 t) = _
  rw [after2_6]
  unfold out2_6
  rw [View.canon_unit_zero hz2]
  simp only [View.ld_unit_zero (S := S2000x256) hz2, View.ld_unit_zero (S := S2000x1) hz2, View.ld_unit_zero (S := S256x256) hz2,
    View.ld_unit_zero (S := S1x256) hz2]
  funext j
  have hj0 : (j 0).val < 2000 := (j 0).isLt
  have hj1 : (j 1).val < 256 := (j 1).isLt
  have ht : t.val < 25 := lt_of_lt_of_eq t.isLt (N_2 : cfg2.N = 25)
  have e := idx_facts2 t
  have e6 : win2_6.index t (0 : Fin 2) = t.val := e.2.2.2.2.2.2.2.2.2.2.2.2.1
  have e7 : win2_6.index t (1 : Fin 2) = 0 := e.2.2.2.2.2.2.2.2.2.2.2.2.2
  have hx : (win2 6).xinj (grid2.coords t) j = ix2 (⟨(j 0).val, hj0⟩ : Fin 2000) (⟨(j 1).val, hj1⟩ : Fin 256) :=
    funext fun a => by match a with | ⟨0, _⟩ => rfl | ⟨1, _⟩ => rfl
  have hemb : ((View.whole main_v39).slice ((win2 6).rect t)).emb j
      = ix2 (⟨t.val * 2000 + (j 0).val, by omega⟩ : Fin 50000) (⟨(j 1).val, hj1⟩ : Fin 256) :=
    funext fun a => Fin.ext (by
      match a with
      | ⟨0, _⟩ => show win2_6.index t 0 * 2000 + 1 * (j 0).val = t.val * 2000 + (j 0).val; rw [e6]; omega
      | ⟨1, _⟩ => show win2_6.index t 1 * 256 + 1 * (j 1).val = (j 1).val; rw [e7]; omega)
  show k2_pay1 (iblk2 V c 0 t) (iblk2 V c 2 t) (iblk2 V c 1 t) (iblk2 V c 3 t) (iblk2 V c 4 t) (iblk2 V c 5 t) ((win2 6).xinj (grid2.coords t) j) = _
  refine (congrArg (k2_pay1 (iblk2 V c 0 t) (iblk2 V c 2 t) (iblk2 V c 1 t) (iblk2 V c 3 t) (iblk2 V c 4 t) (iblk2 V c 5 t)) hx).trans ?_
  refine (pay2_apply (iblk2 V c 0 t) (iblk2 V c 2 t) (iblk2 V c 1 t) (iblk2 V c 3 t) (iblk2 V c 4 t) (iblk2 V c 5 t) _ _).trans ?_
  rw [View.read_apply]
  refine Eq.trans ?_ (congrArg (Cert.Spec.sage (V c main_v37) (V c main_v27) (V c main_v13) (V c main_arg7) (V c main_arg9) (V c main_v38)) hemb).symm
  refine congrArg₂ max (congrArg₂ (· + ·) (congrArg₂ (· + ·)
    (Finset.sum_congr rfl fun k _ => congrArg₂ (· * ·) (congrArg₂ (· * ·) ?_ ?_) ?_)
    (Finset.sum_congr rfl fun k _ => congrArg₂ (· * ·) ?_ ?_)) ?_) rfl
  · exact iblk2_0_apply V c t _ _ rfl rfl
  · exact iblk2_2_apply V c t _ _ rfl rfl
  · exact iblk2_3_apply V c t _
  · exact iblk2_1_apply V c t _ _ rfl rfl
  · exact iblk2_4_apply V c t _
  · exact iblk2_5_apply V c t _

/-- An index of the result array lies in point `t`'s block iff each coordinate is in the block's range on its axis. -/
theorem mem_blk2 (t : Fin cfg2.N) (i : S50000x256.Idx) :
    i ∈ ((cfg2.win 6).blk t).view.set ↔ ∀ a : Fin 2, win2_6.index t a * S2000x256.size a ≤ (i a).val
      ∧ (i a).val < win2_6.index t a * S2000x256.size a + S2000x256.size a := by
  show i ∈ ((View.whole main_v39).slice (win2_6.rect t)).set ↔ _
  rw [View.set_slice_whole, Rect.mem_set_unit]
  exact Iff.rfl

/-- The twenty-five blocks of 2000 rows fill the 50000 rows (row `r` lies in block `r / 2000`), so the result array
    ends holding the layer of the whole arrays. -/
theorem final2 (c : Dev nD) : (Gen.dat2 (F := Ideal) V c).arrAt 6 cfg2.N
      = Cert.Spec.sage (V c main_v37) (V c main_v27) (V c main_v13) (V c main_arg7) (V c main_arg9) (V c main_v38) :=
  (dat2 (F := Ideal) V c).arrAt_eq_of_cover 6 (Cert.Spec.sage (V c main_v37) (V c main_v27) (V c main_v13) (V c main_arg7) (V c main_arg9) (V c main_v38))
    (fun t _ => flushed2_eq V c t) fun i => by
    have hi0 : (i 0).val < 50000 := (i 0).isLt
    have hi1 : (i 1).val < 256 := (i 1).isLt
    have hN : cfg2.N = 25 := N_2
    refine ⟨⟨(i 0).val / 2000, by rw [hN]; omega⟩, flush2_6 _, ?_⟩
    have e := idx_facts2 ⟨(i 0).val / 2000, by rw [hN]; omega⟩
    have e6 := e.2.2.2.2.2.2.2.2.2.2.2.2.1
    have e7 := e.2.2.2.2.2.2.2.2.2.2.2.2.2
    rw [mem_blk2]
    intro a
    match a with
    | ⟨0, _⟩ =>
      show win2_6.index _ 0 * 2000 ≤ (i 0).val ∧ (i 0).val < win2_6.index _ 0 * 2000 + 2000
      rw [e6]; show (i 0).val / 2000 * 2000 ≤ (i 0).val ∧ (i 0).val < (i 0).val / 2000 * 2000 + 2000; omega
    | ⟨1, _⟩ =>
      show win2_6.index _ 1 * 256 ≤ (i 1).val ∧ (i 1).val < win2_6.index _ 1 * 256 + 256
      rw [e7]; omega

end Cert.KernelIdeal.RegionValue

end
-- ==== Proof.Region3.lean ====
/-
  The third neighbour-mean layer's region, as one function of whole arrays.

  The region visits twenty-five points.  At point t it stages rows 2000 t … 2000 t + 1999 of the neighbour sums, of the
  features and of the inverse-degree column, the two whole weight matrices (256 by 256) and the whole bias row, stores
  max ((a ∘ s) · Wl + h · Wr + b) 0 of them, where a ∘ s scales row p of the neighbour sums by entry p of the column,
  and writes that block back to the same rows of the result.  Entry by entry the block is the layer of the whole
  arrays restricted to those rows, and the twenty-five blocks fill the 50000 rows: the result array ends holding the
  layer of the arrays the region was entered with, whatever they are.
-/
import proofs.«175068_j41858751266832_1_alg».proof.Proof.Gen.KernelIdeal.Frame
import proofs.«175068_j41858751266832_1_alg».proof.Proof.Spec
import proofs.«175068_j41858751266832_1_alg».proof.Proof.LibPlainDot
import proofs.«175068_j41858751266832_1_alg».proof.Proof.LibLayout
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- A layer's two products have 2000 rows, inner extent 256 and 256 columns, with no batch axis. -/
theorem dot3_plain : dot_S2000x256_S256x256_S2000x256_1_0_0_1_n_n = DotDims.plain 2000 256 256 := rfl

/-- What the layer's body stores, entry by entry: the neighbour sums scaled row by row, times the left weights,
    plus the features times the right weights, plus the bias row, clamped below at zero. -/
theorem pay3_apply (a : Vec Ideal S2000x256 .f32) (s : Vec Ideal S2000x1 .f32) (h : Vec Ideal S2000x256 .f32)
    (Wl Wr : Vec Ideal S256x256 .f32) (b : Vec Ideal S1x256 .f32) (p : Fin 2000) (q : Fin 256) :
    k3_pay1 a s h Wl Wr b (ix2 p q)
      = max (((∑ k : Fin 256, (a (ix2 p k) * s (ix2 p (0 : Fin 1))) * Wl (ix2 k q))
          + (∑ k : Fin 256, h (ix2 p k) * Wr (ix2 k q))) + b (ix2 (0 : Fin 1) q)) 0 := by
  unfold k3_pay1
  refine (maximumf_apply _ _ _).trans ?_
  refine congrArg₂ max ?_ Ideal.ofBits_zero_f32
  refine (addf_apply _ _ _).trans ?_
  refine congrArg₂ (· + ·) ?_ ?_
  · refine (addf_apply _ _ _).trans ?_
    refine congrArg₂ (· + ·) ?_ ?_
    · refine (Cert.LibPlainDot.matmul_zero_apply _ dot3_plain none _ _ p q).trans ?_
      refine Finset.sum_congr rfl fun k _ => congrArg₂ (· * ·) ?_ rfl
      refine (mulf_apply _ _ _).trans ?_
      refine congrArg₂ (· * ·) ?_ ?_
      · rw [shapeCast_self]
      · refine (Cert.LibLayout.broadcastTo_a1_ab_apply _ _ p k).trans ?_
        rw [shapeCast_self]
    · refine (Cert.LibPlainDot.matmul_zero_apply _ dot3_plain none _ _ p q).trans ?_
      refine Finset.sum_congr rfl fun k _ => congrArg₂ (· * ·) ?_ rfl
      show shapeCast S2000x256 h shapeCasts_S2000x256_S2000x256 (ix2 p k) = h (ix2 p k)
      rw [shapeCast_self]
  · refine (broadcastTo_1b_ab_apply _ _ p q).trans ?_
    rw [shapeCast_self]

theorem hz3 : (![0, 0] : Fin 2 → Nat) = fun _ => 0 := funext fun a => by fin_cases a <;> rfl

/-- The block indices over the grid: the three row windows and the result move one block per point, the weights and the
    bias stay. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

variable (V : (c : Dev nD) → (b : Ref sig .tc) → Buf (Elt Ideal) ((c : Thread nD τ).loc b))

/-- Window 0's block at point `t` is rows `2000 t … 2000 t + 1999` of the neighbour sums. -/
theorem iblk3_0_apply (c : Dev nD) (t : Fin cfg3.N) (y : S2000x256.Idx) (i : S50000x256.Idx)
    (h0 : (i 0).val = t.val * 2000 + (y 0).val) (h1 : (i 1).val = (y 1).val) :
    (iblk3 V c 0 t : Vec Ideal S2000x256 .f32) y = (V c main_v49 : S50000x256.Idx → Elt Ideal .f32) i := by
  have e := idx_facts3 t
  have e0 : win3_0.index t (0 : Fin 2) = t.val := e.1
  have e1 : win3_0.index t (1 : Fin 2) = 0 := e.2.1
  unfold iblk3
  rw [View.read_apply]
  show V c main_v49 _ = V c main_v49 _
  refine congrArg _ ?_
  funext a
  apply Fin.ext
  match a with
  | ⟨0, _⟩ => show win3_0.index t 0 * 2000 + 1 * (y 0).val = (i 0).val; rw [e0, h0]; omega
  | ⟨1, _⟩ => show win3_0.index t 1 * 256 + 1 * (y 1).val = (i 1).val; rw [e1, h1]; omega

/-- Window 1's block at point `t` is rows `2000 t … 2000 t + 1999` of the features. -/
theorem iblk3_1_apply (c : Dev nD) (t : Fin cfg3.N) (y : S2000x256.Idx) (i : S50000x256.Idx)
    (h0 : (i 0).val = t.val * 2000 + (y 0).val) (h1 : (i 1).val = (y 1).val) :
    (iblk3 V c 1 t : Vec Ideal S2000x256 .f32) y = (V c main_v39 : S50000x256.Idx → Elt Ideal .f32) i := by
  have e := idx_facts3 t
  have e0 : win3_1.index t (0 : Fin 2) = t.val := e.2.2.1
  have e1 : win3_1.index t (1 : Fin 2) = 0 := e.2.2.2.1
  unfold iblk3
  rw [View.read_apply]
  show V c main_v39 _ = V c main_v39 _
  refine congrArg _ ?_
  funext a
  apply Fin.ext
  match a with
  | ⟨0, _⟩ => show win3_1.index t 0 * 2000 + 1 * (y 0).val = (i 0).val; rw [e0, h0]; omega
  | ⟨1, _⟩ => show win3_1.index t 1 * 256 + 1 * (y 1).val = (i 1).val; rw [e1, h1]; omega

/-- Window 2's block at point `t` is rows `2000 t … 2000 t + 1999` of the inverse-degree column. -/
theorem iblk3_2_apply (c : Dev nD) (t : Fin cfg3.N) (y : S2000x1.Idx) (i : S50000x1.Idx)
    (h0 : (i 0).val = t.val * 2000 + (y 0).val) (h1 : (i 1).val = (y 1).val) :
    (iblk3 V c 2 t : Vec Ideal S2000x1 .f32) y = (V c main_v13 : S50000x1.Idx → Elt Ideal .f32) i := by
  have e := idx_facts3 t
  have e0 : win3_2.index t (0 : Fin 2) = t.val := e.2.2.2.2.1
  have e1 : win3_2.index t (1 : Fin 2) = 0 := e.2.2.2.2.2.1
  unfold iblk3
  rw [View.read_apply]
  show V c main_v13 _ = V c main_v13 _
  refine congrArg _ ?_
  funext a
  apply Fin.ext
  match a with
  | ⟨0, _⟩ => show win3_2.index t 0 * 2000 + 1 * (y 0).val = (i 0).val; rw [e0, h0]; omega
  | ⟨1, _⟩ => show win3_2.index t 1 * 1 + 1 * (y 1).val = (i 1).val; rw [e1, h1]; omega

/-- Window 3's block at every point is the whole of the left weights. -/
theorem iblk3_3_apply (c : Dev nD) (t : Fin cfg3.N) (y : S256x256.Idx) :
    (iblk3 V c 3 t : Vec Ideal S256x256 .f32) y = (V c main_arg10 : S256x256.Idx → Elt Ideal .f32) y := by
  have e := idx_facts3 t
  have e0 : win3_3.index t (0 : Fin 2) = 0 := e.2.2.2.2.2.2.1
  have e1 : win3_3.index t (1 : Fin 2) = 0 := e.2.2.2.2.2.2.2.1
  unfold iblk3
  rw [View.read_apply]
  show V c main_arg10 _ = V c main_arg10 _
  refine congrArg _ ?_
  funext a
  apply Fin.ext
  match a with
  | ⟨0, _⟩ => show win3_3.index t 0 * 256 + 1 * (y 0).val = (y 0).val; rw [e0]; omega
  | ⟨1, _⟩ => show win3_3.index t 1 * 256 + 1 * (y 1).val = (y 1).val; rw [e1]; omega

/-- Window 4's block at every point is the whole of the right weights. -/
theorem iblk3_4_apply (c : Dev nD) (t : Fin cfg3.N) (y : S256x256.Idx) :
    (iblk3 V c 4 t : Vec Ideal S256x256 .f32) y = (V c main_arg12 : S256x256.Idx → Elt Ideal .f32) y := by
  have e := idx_facts3 t
  have e0 : win3_4.index t (0 : Fin 2) = 0 := e.2.2.2.2.2.2.2.2.1
  have e1 : win3_4.index t (1 : Fin 2) = 0 := e.2.2.2.2.2.2.2.2.2.1
  unfold iblk3
  rw [View.read_apply]
  show V c main_arg12 _ = V c main_arg12 _
  refine congrArg _ ?_
  funext a
  apply Fin.ext
  match a with
  | ⟨0, _⟩ => show win3_4.index t 0 * 256 + 1 * (y 0).val = (y 0).val; rw [e0]; omega
  | ⟨1, _⟩ => show win3_4.index t 1 * 256 + 1 * (y 1).val = (y 1).val; rw [e1]; omega

/-- Window 5's block at every point is the whole of the bias row. -/
theorem iblk3_5_apply (c : Dev nD) (t : Fin cfg3.N) (y : S1x256.Idx) :
    (iblk3 V c 5 t : Vec Ideal S1x256 .f32) y = (V c main_v50 : S1x256.Idx → Elt Ideal .f32) y := by
  have e := idx_facts3 t
  have e0 : win3_5.index t (0 : Fin 2) = 0 := e.2.2.2.2.2.2.2.2.2.2.1
  have e1 : win3_5.index t (1 : Fin 2) = 0 := e.2.2.2.2.2.2.2.2.2.2.2.1
  unfold iblk3
  rw [View.read_apply]
  show V c main_v50 _ = V c main_v50 _
  refine congrArg _ ?_
  funext a
  apply Fin.ext
  match a with
  | ⟨0, _⟩ => show win3_5.index t 0 * 1 + 1 * (y 0).val = (y 0).val; rw [e0]; omega
  | ⟨1, _⟩ => show win3_5.index t 1 * 256 + 1 * (y 1).val = (y 1).val; rw [e1]; omega

/-- What point `t` writes back is rows `2000 t … 2000 t + 1999` of the layer of the whole arrays. -/
theorem flushed3_eq (c : Dev nD) (t : Fin cfg3.N) :
    (dat3 (F := Ideal) V c).flushed 6 t = ((cfg3.win 6).blk t).view.read (Elt Ideal)
      (Cert.Spec.sage (V c main_v49) (V c main_v39) (V c main_v13) (V c main_arg10) (V c main_arg12) (V c main_v50)) := by
  show (cfg3.win 6).cut (grid3.coords t) ((dat3 (F := Ideal) V c).after 6 t) = _
  rw [after3_6]
  unfold out3_6
  rw [View.canon_unit_zero hz3]
  simp only [View.ld_unit_zero (S := S2000x256) hz3, View.ld_unit_zero (S := S2000x1) hz3, View.ld_unit_zero (S := S256x256) hz3,
    View.ld_unit_zero (S := S1x256) hz3]
  funext j
  have hj0 : (j 0).val < 2000 := (j 0).isLt
  have hj1 : (j 1).val < 256 := (j 1).isLt
  have ht : t.val < 25 := lt_of_lt_of_eq t.isLt (N_3 : cfg3.N = 25)
  have e := idx_facts3 t
  have e6 : win3_6.index t (0 : Fin 2) = t.val := e.2.2.2.2.2.2.2.2.2.2.2.2.1
  have e7 : win3_6.index t (1 : Fin 2) = 0 := e.2.2.2.2.2.2.2.2.2.2.2.2.2
  have hx : (win3 6).xinj (grid3.coords t) j = ix2 (⟨(j 0).val, hj0⟩ : Fin 2000) (⟨(j 1).val, hj1⟩ : Fin 256) :=
    funext fun a => by match a with | ⟨0, _⟩ => rfl | ⟨1, _⟩ => rfl
  have hemb : ((View.whole main_v51).slice ((win3 6).rect t)).emb j
      = ix2 (⟨t.val * 2000 + (j 0).val, by omega⟩ : Fin 50000) (⟨(j 1).val, hj1⟩ : Fin 256) :=
    funext fun a => Fin.ext (by
      match a with
      | ⟨0, _⟩ => show win3_6.index t 0 * 2000 + 1 * (j 0).val = t.val * 2000 + (j 0).val; rw [e6]; omega
      | ⟨1, _⟩ => show win3_6.index t 1 * 256 + 1 * (j 1).val = (j 1).val; rw [e7]; omega)
  show k3_pay1 (iblk3 V c 0 t) (iblk3 V c 2 t) (iblk3 V c 1 t) (iblk3 V c 3 t) (iblk3 V c 4 t) (iblk3 V c 5 t) ((win3 6).xinj (grid3.coords t) j) = _
  refine (congrArg (k3_pay1 (iblk3 V c 0 t) (iblk3 V c 2 t) (iblk3 V c 1 t) (iblk3 V c 3 t) (iblk3 V c 4 t) (iblk3 V c 5 t)) hx).trans ?_
  refine (pay3_apply (iblk3 V c 0 t) (iblk3 V c 2 t) (iblk3 V c 1 t) (iblk3 V c 3 t) (iblk3 V c 4 t) (iblk3 V c 5 t) _ _).trans ?_
  rw [View.read_apply]
  refine Eq.trans ?_ (congrArg (Cert.Spec.sage (V c main_v49) (V c main_v39) (V c main_v13) (V c main_arg10) (V c main_arg12) (V c main_v50)) hemb).symm
  refine congrArg₂ max (congrArg₂ (· + ·) (congrArg₂ (· + ·)
    (Finset.sum_congr rfl fun k _ => congrArg₂ (· * ·) (congrArg₂ (· * ·) ?_ ?_) ?_)
    (Finset.sum_congr rfl fun k _ => congrArg₂ (· * ·) ?_ ?_)) ?_) rfl
  · exact iblk3_0_apply V c t _ _ rfl rfl
  · exact iblk3_2_apply V c t _ _ rfl rfl
  · exact iblk3_3_apply V c t _
  · exact iblk3_1_apply V c t _ _ rfl rfl
  · exact iblk3_4_apply V c t _
  · exact iblk3_5_apply V c t _

/-- An index of the result array lies in point `t`'s block iff each coordinate is in the block's range on its axis. -/
theorem mem_blk3 (t : Fin cfg3.N) (i : S50000x256.Idx) :
    i ∈ ((cfg3.win 6).blk t).view.set ↔ ∀ a : Fin 2, win3_6.index t a * S2000x256.size a ≤ (i a).val
      ∧ (i a).val < win3_6.index t a * S2000x256.size a + S2000x256.size a := by
  show i ∈ ((View.whole main_v51).slice (win3_6.rect t)).set ↔ _
  rw [View.set_slice_whole, Rect.mem_set_unit]
  exact Iff.rfl

/-- The twenty-five blocks of 2000 rows fill the 50000 rows (row `r` lies in block `r / 2000`), so the result array
    ends holding the layer of the whole arrays. -/
theorem final3 (c : Dev nD) : (Gen.dat3 (F := Ideal) V c).arrAt 6 cfg3.N
      = Cert.Spec.sage (V c main_v49) (V c main_v39) (V c main_v13) (V c main_arg10) (V c main_arg12) (V c main_v50) :=
  (dat3 (F := Ideal) V c).arrAt_eq_of_cover 6 (Cert.Spec.sage (V c main_v49) (V c main_v39) (V c main_v13) (V c main_arg10) (V c main_arg12) (V c main_v50))
    (fun t _ => flushed3_eq V c t) fun i => by
    have hi0 : (i 0).val < 50000 := (i 0).isLt
    have hi1 : (i 1).val < 256 := (i 1).isLt
    have hN : cfg3.N = 25 := N_3
    refine ⟨⟨(i 0).val / 2000, by rw [hN]; omega⟩, flush3_6 _, ?_⟩
    have e := idx_facts3 ⟨(i 0).val / 2000, by rw [hN]; omega⟩
    have e6 := e.2.2.2.2.2.2.2.2.2.2.2.2.1
    have e7 := e.2.2.2.2.2.2.2.2.2.2.2.2.2
    rw [mem_blk3]
    intro a
    match a with
    | ⟨0, _⟩ =>
      show win3_6.index _ 0 * 2000 ≤ (i 0).val ∧ (i 0).val < win3_6.index _ 0 * 2000 + 2000
      rw [e6]; show (i 0).val / 2000 * 2000 ≤ (i 0).val ∧ (i 0).val < (i 0).val / 2000 * 2000 + 2000; omega
    | ⟨1, _⟩ =>
      show win3_6.index _ 1 * 256 ≤ (i 1).val ∧ (i 1).val < win3_6.index _ 1 * 256 + 256
      rw [e7]; omega

end Cert.KernelIdeal.RegionValue

end
-- ==== Proof.Boundary.lean ====
/-
  The kernel program's result as the network of its arguments.

  At each boundary of the program — after a stretch of host operations, after a pipelined region — the contents
  of the buffers that matter are known: the edge sources and destinations, the inverse-degree column and the
  argument arrays hold from the first region's entry on what they held there; a hidden layer's array holds from
  its region's exit on what the region left, which is the layer's function of the arrays the region read; a
  neighbour sum holds what the host's gather and scatter-add make of the hidden layer before it.  Walking the
  boundaries from the launch to the return gives the result buffer as the whole network.
-/
import proofs.«175068_j41858751266832_1_alg».proof.Proof.Keep
import proofs.«175068_j41858751266832_1_alg».proof.Proof.Entry
import proofs.«175068_j41858751266832_1_alg».proof.Proof.Stretch
import proofs.«175068_j41858751266832_1_alg».proof.Proof.Region0
import proofs.«175068_j41858751266832_1_alg».proof.Proof.Region1
import proofs.«175068_j41858751266832_1_alg».proof.Proof.Region2
import proofs.«175068_j41858751266832_1_alg».proof.Proof.Region3

set_option maxRecDepth 16384

noncomputable section

namespace Cert.KernelIdeal.Boundary

open Cert.KernelIdeal Cert.KernelIdeal.Gen Cert.KernelIdeal.Keep Cert.KernelIdeal.Entry Cert.KernelIdeal.RegionValue
open Idealize.ShloMosaic Idealize.ShloMosaic.TcCoe Idealize.SL.Sem

variable (m : (ℓ : Loc nD τ sig) → Buf (Elt Ideal) ℓ) (ρ : Dev nD → PrngReg) (c : Dev nD)

/-! ## The fixed buffers at a boundary -/

/-- A fixed buffer's contents at the first region's entry, named. -/
theorem arg_at3 {b : Ref sig .tc} (hb : b ∈ args) : W3 m ρ c (Proc.devRef .tc b) = W0 m ρ c (Proc.devRef .tc b) := args_at_entry0 m ρ c b hb

theorem arg0_at3 : W3 m ρ c (Proc.devRef .tc main_arg0) = (m ((c.tc : Thread nD τ).loc main_arg0)) := (arg_at3 m ρ c (by decide)).trans rfl
theorem arg2_at3 : W3 m ρ c (Proc.devRef .tc main_arg2) = (m ((c.tc : Thread nD τ).loc main_arg2)) := (arg_at3 m ρ c (by decide)).trans rfl
theorem arg4_at3 : W3 m ρ c (Proc.devRef .tc main_arg4) = (m ((c.tc : Thread nD τ).loc main_arg4)) := (arg_at3 m ρ c (by decide)).trans rfl
theorem arg5_at3 : W3 m ρ c (Proc.devRef .tc main_arg5) = (m ((c.tc : Thread nD τ).loc main_arg5)) := (arg_at3 m ρ c (by decide)).trans rfl
theorem arg6_at3 : W3 m ρ c (Proc.devRef .tc main_arg6) = (m ((c.tc : Thread nD τ).loc main_arg6)) := (arg_at3 m ρ c (by decide)).trans rfl
theorem arg7_at3 : W3 m ρ c (Proc.devRef .tc main_arg7) = (m ((c.tc : Thread nD τ).loc main_arg7)) := (arg_at3 m ρ c (by decide)).trans rfl
theorem arg8_at3 : W3 m ρ c (Proc.devRef .tc main_arg8) = (m ((c.tc : Thread nD τ).loc main_arg8)) := (arg_at3 m ρ c (by decide)).trans rfl
theorem arg9_at3 : W3 m ρ c (Proc.devRef .tc main_arg9) = (m ((c.tc : Thread nD τ).loc main_arg9)) := (arg_at3 m ρ c (by decide)).trans rfl
theorem arg10_at3 : W3 m ρ c (Proc.devRef .tc main_arg10) = (m ((c.tc : Thread nD τ).loc main_arg10)) := (arg_at3 m ρ c (by decide)).trans rfl
theorem arg11_at3 : W3 m ρ c (Proc.devRef .tc main_arg11) = (m ((c.tc : Thread nD τ).loc main_arg11)) := (arg_at3 m ρ c (by decide)).trans rfl
theorem arg12_at3 : W3 m ρ c (Proc.devRef .tc main_arg12) = (m ((c.tc : Thread nD τ).loc main_arg12)) := (arg_at3 m ρ c (by decide)).trans rfl

/-! ## The first hidden layer -/

/-- The first region leaves the input projection of the features. -/
theorem h0_at4 : W4 m ρ c (Proc.devRef .tc main_v15) = Cert.Spec.h0 (m ((c.tc : Thread nD τ).loc main_arg0)) (m ((c.tc : Thread nD τ).loc main_arg2)) (m ((c.tc : Thread nD τ).loc main_arg3)) := by
  refine (W4_arr m ρ c 3).trans ((final0 (V3 m ρ) c).trans ?_)
  show Cert.Spec.inProj (W3 m ρ c (Proc.devRef .tc main_arg0)) (W3 m ρ c (Proc.devRef .tc main_arg2)) (W3 m ρ c (Proc.devRef .tc main_v14)) = _
  rw [arg0_at3, arg2_at3, row_at3]
  rfl

/-! ## The second hidden layer -/

theorem agg_at5 : W5 m ρ c (Proc.devRef .tc main_v25)
    = Cert.Spec.agg128 (Cert.Spec.src (m ((c.tc : Thread nD τ).loc main_arg1))) (Cert.Spec.dst (m ((c.tc : Thread nD τ).loc main_arg1))) (Cert.Spec.h0 (m ((c.tc : Thread nD τ).loc main_arg0)) (m ((c.tc : Thread nD τ).loc main_arg2)) (m ((c.tc : Thread nD τ).loc main_arg3))) := by
  rw [agg_after1, fixed4 m ρ c main_v1 (by decide), fixed4 m ρ c main_v3 (by decide), src_at3, dst_at3, h0_at4]

theorem row_at5 : W5 m ρ c (Proc.devRef .tc main_v26) = Cert.Spec.row256 (m ((c.tc : Thread nD τ).loc main_arg5)) := by
  rw [row_after1, fixed4 m ρ c main_arg5 (by decide), arg5_at3]

/-- The second region leaves the neighbour-mean layer of the first hidden layer. -/
theorem h1_at6 : W6 m ρ c (Proc.devRef .tc main_v27)
    = Cert.Spec.h1 (m ((c.tc : Thread nD τ).loc main_arg1)) (Cert.Spec.h0 (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6)) := by
  refine (W6_arr m ρ c 6).trans ((final1 (V5 m ρ) c).trans ?_)
  show Cert.Spec.sage (W5 m ρ c (Proc.devRef .tc main_v25)) (W5 m ρ c (Proc.devRef .tc main_v15)) (W5 m ρ c (Proc.devRef .tc main_v13))
    (W5 m ρ c (Proc.devRef .tc main_arg4)) (W5 m ρ c (Proc.devRef .tc main_arg6)) (W5 m ρ c (Proc.devRef .tc main_v26)) = _
  rw [agg_at5, row_at5, carried_over1 m ρ c main_v15 (by decide), h0_at4,
    fixed5 m ρ c main_v13 (by decide), inv_at3, fixed5 m ρ c main_arg4 (by decide), arg4_at3,
    fixed5 m ρ c main_arg6 (by decide), arg6_at3]
  rfl

/-! ## The third hidden layer -/

theorem agg_at7 : W7 m ρ c (Proc.devRef .tc main_v37)
    = Cert.Spec.agg256 (Cert.Spec.src (m ((c.tc : Thread nD τ).loc main_arg1))) (Cert.Spec.dst (m ((c.tc : Thread nD τ).loc main_arg1)))
        (Cert.Spec.h1 (m ((c.tc : Thread nD τ).loc main_arg1)) (Cert.Spec.h0 (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6))) := by
  rw [agg_after2, fixed6 m ρ c main_v1 (by decide), fixed6 m ρ c main_v3 (by decide), src_at3, dst_at3, h1_at6]

theorem row_at7 : W7 m ρ c (Proc.devRef .tc main_v38) = Cert.Spec.row256 (m ((c.tc : Thread nD τ).loc main_arg8)) := by
  rw [row_after2, fixed6 m ρ c main_arg8 (by decide), arg8_at3]

/-- The third region leaves the neighbour-mean layer of the second hidden layer. -/
theorem h2_at8 : W8 m ρ c (Proc.devRef .tc main_v39)
    = Cert.Spec.h2 (m ((c.tc : Thread nD τ).loc main_arg1)) (Cert.Spec.h1 (m ((c.tc : Thread nD τ).loc main_arg1)) (Cert.Spec.h0 (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8)) (m ((c.tc : Thread nD τ).loc main_arg9)) := by
  refine (W8_arr m ρ c 6).trans ((final2 (V7 m ρ) c).trans ?_)
  show Cert.Spec.sage (W7 m ρ c (Proc.devRef .tc main_v37)) (W7 m ρ c (Proc.devRef .tc main_v27)) (W7 m ρ c (Proc.devRef .tc main_v13))
    (W7 m ρ c (Proc.devRef .tc main_arg7)) (W7 m ρ c (Proc.devRef .tc main_arg9)) (W7 m ρ c (Proc.devRef .tc main_v38)) = _
  rw [agg_at7, row_at7, carried_over2 m ρ c main_v27 (by decide), h1_at6,
    fixed7 m ρ c main_v13 (by decide), inv_at3, fixed7 m ρ c main_arg7 (by decide), arg7_at3,
    fixed7 m ρ c main_arg9 (by decide), arg9_at3]
  rfl

/-! ## The result -/

theorem agg_at9 : W9 m ρ c (Proc.devRef .tc main_v49)
    = Cert.Spec.agg256 (Cert.Spec.src (m ((c.tc : Thread nD τ).loc main_arg1))) (Cert.Spec.dst (m ((c.tc : Thread nD τ).loc main_arg1)))
        (Cert.Spec.h2 (m ((c.tc : Thread nD τ).loc main_arg1)) (Cert.Spec.h1 (m ((c.tc : Thread nD τ).loc main_arg1)) (Cert.Spec.h0 (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8)) (m ((c.tc : Thread nD τ).loc main_arg9))) := by
  rw [agg_after3, fixed8 m ρ c main_v1 (by decide), fixed8 m ρ c main_v3 (by decide), src_at3, dst_at3, h2_at8]

theorem row_at9 : W9 m ρ c (Proc.devRef .tc main_v50) = Cert.Spec.row256 (m ((c.tc : Thread nD τ).loc main_arg11)) := by
  rw [row_after3, fixed8 m ρ c main_arg11 (by decide), arg11_at3]

/-- The result buffer ends holding the whole network of the argument arrays. -/
theorem result : W10 m ρ c (Proc.devRef .tc main_v51)
    = Cert.Spec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  refine (W10_arr m ρ c 6).trans ((final3 (V9 m ρ) c).trans ?_)
  show Cert.Spec.sage (W9 m ρ c (Proc.devRef .tc main_v49)) (W9 m ρ c (Proc.devRef .tc main_v39)) (W9 m ρ c (Proc.devRef .tc main_v13))
    (W9 m ρ c (Proc.devRef .tc main_arg10)) (W9 m ρ c (Proc.devRef .tc main_arg12)) (W9 m ρ c (Proc.devRef .tc main_v50)) = _
  rw [agg_at9, row_at9, carried_over3 m ρ c main_v39 (by decide), h2_at8,
    fixed9 m ρ c main_v13 (by decide), inv_at3, fixed9 m ρ c main_arg10 (by decide), arg10_at3,
    fixed9 m ρ c main_arg12 (by decide), arg12_at3]
  rfl

end Cert.KernelIdeal.Boundary

end
-- ==== Proof.LibHostLayers.lean ====
/-
  Dense layers of a host program, read entry by entry over the extended reals.

  A host program spells "max (x · W + b) 0" as a maximum of a sum of a plain matrix product and a bias laid
  along every row, against a broadcast zero; and a two-product layer "max ((a ∘ s) · Wl + b + h · Wr) 0" with
  the left operand's rows scaled by a column.  At entry (p, c) the matrix products are finite sums, the bias
  row contributes its entry c, the scale column its entry p, and the zero is zero; addition of extended reals
  is commutative and associative, so the bias may be added last.
-/
import Idealize.ShloMosaic.Lib.ValueIdx
import Idealize.ShloMosaic.Lib.IdealHost
import Idealize.ShloMosaic.PureOps.Ideal.Laws
import proofs.«175068_j41858751266832_1_alg».proof.Proof.Spec
import proofs.«175068_j41858751266832_1_alg».proof.Proof.LibPlainDot
import proofs.«175068_j41858751266832_1_alg».proof.Proof.LibLayout

noncomputable section

open scoped BigOperators

namespace Cert.LibHostLayers

open Idealize.ShloMosaic Idealize.ShloMosaic.ValueIdx

variable {r k d : ℕ}

/-- A broadcast scalar zero is zero at every index. -/
theorem zero_apply {T : Shape} (h0 : (⟨0, ![]⟩ : Shape).BroadcastsInDim T ![]) (j : T.Idx) :
    broadcastInDim T ![] h0 (constant (F := Ideal) ⟨0, ![]⟩ .f32 0x00000000#32) j = (0 : EReal) := by
  rw [broadcastInDim_scalar_apply, constant_apply, Ideal.ofBits_zero_f32]

/-- A length-d bias made a row by a broadcast and laid along every row reads, at (p, c), the bias's row form at (0, c). -/
theorem bias_apply {α : Type}
    (hrow : (⟨1, ![d]⟩ : Shape).BroadcastsInDim ⟨2, ![1, d]⟩ (![1] : Fin 1 → Fin 2))
    (hb : (⟨2, ![1, d]⟩ : Shape).BroadcastsInDim ⟨2, ![r, d]⟩ (![0, 1] : Fin 2 → Fin 2))
    (hc : (⟨1, ![d]⟩ : Shape).ShapeCasts ⟨2, ![1, d]⟩)
    (b : (⟨1, ![d]⟩ : Shape).Idx → α) (p : Fin r) (c : Fin d) :
    broadcastInDim ⟨2, ![r, d]⟩ (![0, 1] : Fin 2 → Fin 2) hb (broadcastInDim ⟨2, ![1, d]⟩ (![1] : Fin 1 → Fin 2) hrow b) (ix2 p c)
      = shapeCast ⟨2, ![1, d]⟩ b hc (ix2 (0 : Fin 1) c) := by
  rw [Cert.LibLayout.broadcastInDim_1b_ab_apply, Cert.LibLayout.shapeCast_eq_broadcastInDim_row b hc hrow]

/-- The host's "max (x · W + b) 0" is the entry-wise input projection. -/
theorem inProj_host (D : DotDims ⟨2, ![r, k]⟩ ⟨2, ![k, d]⟩ ⟨2, ![r, d]⟩) (hD : D = DotDims.plain r k d)
    (hrow : (⟨1, ![d]⟩ : Shape).BroadcastsInDim ⟨2, ![1, d]⟩ (![1] : Fin 1 → Fin 2))
    (hb : (⟨2, ![1, d]⟩ : Shape).BroadcastsInDim ⟨2, ![r, d]⟩ (![0, 1] : Fin 2 → Fin 2))
    (h0 : (⟨0, ![]⟩ : Shape).BroadcastsInDim ⟨2, ![r, d]⟩ ![])
    (hc : (⟨1, ![d]⟩ : Shape).ShapeCasts ⟨2, ![1, d]⟩)
    (x : FVec Ideal ⟨2, ![r, k]⟩ .f32) (W : FVec Ideal ⟨2, ![k, d]⟩ .f32) (b : FVec Ideal ⟨1, ![d]⟩ .f32) :
    maximumf
        (addf (Host.dotGeneral D none x W)
          (broadcastInDim ⟨2, ![r, d]⟩ (![0, 1] : Fin 2 → Fin 2) hb (broadcastInDim ⟨2, ![1, d]⟩ (![1] : Fin 1 → Fin 2) hrow b)))
        (broadcastInDim ⟨2, ![r, d]⟩ ![] h0 (constant (F := Ideal) ⟨0, ![]⟩ .f32 0x00000000#32))
      = Cert.Spec.inProj x W (shapeCast ⟨2, ![1, d]⟩ b hc) := by
  funext i
  obtain ⟨p, c, rfl⟩ : ∃ (p : Fin r) (c : Fin d), i = ix2 p c := ⟨i 0, i 1, eq_ix2 i⟩
  have e1 : Host.dotGeneral D none x W (ix2 p c) = ∑ q : Fin k, x (ix2 p q) * W (ix2 q c) :=
    Cert.LibPlainDot.dotGeneral_apply D hD none .single x W p c
  rw [Cert.Spec.inProj, Cert.Spec.ofEntries_apply, maximumf_apply, addf_apply, e1, bias_apply hrow hb hc, zero_apply]

/-- The host's "max (((a ∘ s) · Wl + b) + h · Wr) 0" is the entry-wise neighbour-mean layer. -/
theorem sage_host (D : DotDims ⟨2, ![r, k]⟩ ⟨2, ![k, d]⟩ ⟨2, ![r, d]⟩) (hD : D = DotDims.plain r k d)
    (hs : (⟨2, ![r, 1]⟩ : Shape).BroadcastsInDim ⟨2, ![r, k]⟩ (![0, 1] : Fin 2 → Fin 2))
    (hrow : (⟨1, ![d]⟩ : Shape).BroadcastsInDim ⟨2, ![1, d]⟩ (![1] : Fin 1 → Fin 2))
    (hb : (⟨2, ![1, d]⟩ : Shape).BroadcastsInDim ⟨2, ![r, d]⟩ (![0, 1] : Fin 2 → Fin 2))
    (h0 : (⟨0, ![]⟩ : Shape).BroadcastsInDim ⟨2, ![r, d]⟩ ![])
    (hc : (⟨1, ![d]⟩ : Shape).ShapeCasts ⟨2, ![1, d]⟩)
    (a h : FVec Ideal ⟨2, ![r, k]⟩ .f32) (s : FVec Ideal ⟨2, ![r, 1]⟩ .f32)
    (Wl : FVec Ideal ⟨2, ![k, d]⟩ .f32) (bl : FVec Ideal ⟨1, ![d]⟩ .f32) (Wr : FVec Ideal ⟨2, ![k, d]⟩ .f32) :
    maximumf
        (addf
          (addf (Host.dotGeneral D none (mulf a (broadcastInDim ⟨2, ![r, k]⟩ (![0, 1] : Fin 2 → Fin 2) hs s)) Wl)
            (broadcastInDim ⟨2, ![r, d]⟩ (![0, 1] : Fin 2 → Fin 2) hb (broadcastInDim ⟨2, ![1, d]⟩ (![1] : Fin 1 → Fin 2) hrow bl)))
          (Host.dotGeneral D none h Wr))
        (broadcastInDim ⟨2, ![r, d]⟩ ![] h0 (constant (F := Ideal) ⟨0, ![]⟩ .f32 0x00000000#32))
      = Cert.Spec.sage a h s Wl Wr (shapeCast ⟨2, ![1, d]⟩ bl hc) := by
  funext i
  obtain ⟨p, c, rfl⟩ : ∃ (p : Fin r) (c : Fin d), i = ix2 p c := ⟨i 0, i 1, eq_ix2 i⟩
  have e1 : Host.dotGeneral D none (mulf a (broadcastInDim ⟨2, ![r, k]⟩ (![0, 1] : Fin 2 → Fin 2) hs s)) Wl (ix2 p c)
      = ∑ q : Fin k, (a (ix2 p q) * s (ix2 p (0 : Fin 1))) * Wl (ix2 q c) := by
    refine (Cert.LibPlainDot.dotGeneral_apply D hD none .single _ Wl p c).trans ?_
    refine Finset.sum_congr rfl fun q _ => ?_
    rw [mulf_apply, Cert.LibLayout.broadcastInDim_a1_ab_apply]
  have e2 : Host.dotGeneral D none h Wr (ix2 p c) = ∑ q : Fin k, h (ix2 p q) * Wr (ix2 q c) :=
    Cert.LibPlainDot.dotGeneral_apply D hD none .single h Wr p c
  rw [Cert.Spec.sage, Cert.Spec.ofEntries_apply, maximumf_apply, addf_apply, addf_apply, e1, e2, bias_apply hrow hb hc, zero_apply]
  exact congrArg (fun t : EReal => max t 0) (add_right_comm _ _ _)

end Cert.LibHostLayers

end
-- ==== Proof.RefLayers.lean ====
/-
  The reference program's layers as functions of whole arrays, and their agreement with the entry-wise network.

  The reference computes, on the host, an input projection followed by three neighbour-mean layers.  Each layer
  is spelt here over variables exactly as the program spells it over its buffers: the input projection as
  max (x · W + row b) 0, a neighbour-mean layer as max (((a ∘ s) · Wl + row bl) + h · Wr) 0, the graph
  operations (sources, destinations, one over the in-degree, the neighbour sums) as the slices, scatter and
  gather they are.  The graph operations are the same host operations as the network's; each layer is, entry
  by entry, the network's layer (the bias may be added last: addition of extended reals is commutative and
  associative).  So the reference's composition is the network.
-/
import Idealize.ShloMosaic.Lib.ValueIdx
import Idealize.ShloMosaic.PureOps.Ideal.Laws
import proofs.«175068_j41858751266832_1_alg».proof.ReferenceIdeal
import proofs.«175068_j41858751266832_1_alg».proof.Proof.Spec
import proofs.«175068_j41858751266832_1_alg».proof.Proof.LibHostLayers

noncomputable section

namespace Cert.ReferenceIdeal.RefValue

open Idealize.ShloMosaic Idealize.ShloMosaic.ValueIdx
open Cert.ReferenceIdeal Cert.ReferenceIdeal.Facts₀ Cert.ReferenceIdeal.Facts

section Defs

variable [Cert.ReferenceIdeal.Facts]

/-! ## The graph operations -/

/-- Row 0 of the edge list: the sources. -/
def rSrc (E : (⟨S2x800000, .i32⟩ : BufTy).Contents (Elt Ideal)) : (⟨S800000, .i32⟩ : BufTy).Contents (Elt Ideal) :=
  shapeCast _ (extractStridedSlice S1x800000 ![0, 0] E slices_S2x800000_S1x800000_0_0) shapeCasts_S1x800000_S800000

/-- Row 1 of the edge list: the destinations. -/
def rDst (E : (⟨S2x800000, .i32⟩ : BufTy).Contents (Elt Ideal)) : (⟨S800000, .i32⟩ : BufTy).Contents (Elt Ideal) :=
  shapeCast _ (extractStridedSlice S1x800000 ![1, 0] E slices_S2x800000_S1x800000_1_0) shapeCasts_S1x800000_S800000

/-- Per node, the number of edges ending there. -/
def rDeg (d : (⟨S800000, .i32⟩ : BufTy).Contents (Elt Ideal)) : FVec Ideal S50000 .f32 :=
  Host.scatterAdd scatter_S50000_S800000x1_S800000_n_0_0_1
    (broadcastInDim S50000 ![] bcast_S_S50000 (constant (F := Ideal) S_ .f32 0x00000000#32))
    (broadcastInDim S800000x1 ![0] bcast_S800000_S800000x1_0 d)
    (broadcastInDim S800000 ![] bcast_S_S800000 (constant (F := Ideal) S_ .f32 0x3F800000#32))

/-- Per node, one over its in-degree where that is positive and zero elsewhere, as a column. -/
def rInvDeg (d : (⟨S800000, .i32⟩ : BufTy).Contents (Elt Ideal)) : FVec Ideal S50000x1 .f32 :=
  broadcastInDim S50000x1 ![0] bcast_S50000_S50000x1_0
    (select (cmpf (F := Ideal) .ogt (rDeg d) (broadcastInDim S50000 ![] bcast_S_S50000 (constant (F := Ideal) S_ .f32 0x00000000#32)))
      (Host.divf (broadcastInDim S50000 ![] bcast_S_S50000 (constant (F := Ideal) S_ .f32 0x3F800000#32)) (rDeg d))
      (broadcastInDim S50000 ![] bcast_S_S50000 (id (constant (F := Ideal) S_ .f32 0x00000000#32))))

/-- The sources with a number below zero counted from the end, as a column of indices. -/
def rSrcCol (s : (⟨S800000, .i32⟩ : BufTy).Contents (Elt Ideal)) : (⟨S800000x1, .i32⟩ : BufTy).Contents (Elt Ideal) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- Per node, the sum of the 128-wide feature rows of the sources of the edges ending there. -/
def rAgg128 (s d : (⟨S800000, .i32⟩ : BufTy).Contents (Elt Ideal)) (h : FVec Ideal S50000x128 .f32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 d)
    (Host.gather gather_S50000x128_S800000x1_S800000x128_1_0_n_n_0_1_1128 h (rSrcCol s))

/-- The same for 256-wide rows. -/
def rAgg256 (s d : (⟨S800000, .i32⟩ : BufTy).Contents (Elt Ideal)) (h : FVec Ideal S50000x256 .f32) : FVec Ideal S50000x256 .f32 :=
  Host.scatterAdd scatter_S50000x256_S800000x1_S800000x256_1_0_0_1
    (broadcastInDim S50000x256 ![] bcast_S_S50000x256 (constant (F := Ideal) S_ .f32 0x00000000#32))
    (broadcastInDim S800000x1 ![0] bcast_S800000_S800000x1_0 d)
    (Host.gather gather_S50000x256_S800000x1_S800000x256_1_0_n_n_0_1_1256 h (rSrcCol s))

/-! ## The layers -/

/-- The input projection: max (x · W + row b) 0. -/
def refIn (x : FVec Ideal S50000x2 .f32) (W : FVec Ideal S2x128 .f32) (b : FVec Ideal S128 .f32) : FVec Ideal S50000x128 .f32 :=
  maximumf
    (addf (Host.dotGeneral dot_S50000x2_S2x128_S50000x128_1_0_0_1_n_n none x W)
      (broadcastInDim S50000x128 ![0, 1] bcast_S1x128_S50000x128_0_1 (broadcastInDim S1x128 ![1] bcast_S128_S1x128_1 b)))
    (broadcastInDim S50000x128 ![] bcast_S_S50000x128 (constant (F := Ideal) S_ .f32 0x00000000#32))

/-- A neighbour-mean layer from 128 to 256 features: max (((a ∘ s) · Wl + row bl) + h · Wr) 0. -/
def refSage128 (a h : FVec Ideal S50000x128 .f32) (s : FVec Ideal S50000x1 .f32)
    (Wl : FVec Ideal S128x256 .f32) (bl : FVec Ideal S256 .f32) (Wr : FVec Ideal S128x256 .f32) : FVec Ideal S50000x256 .f32 :=
  maximumf
    (addf
      (addf
        (Host.dotGeneral dot_S50000x128_S128x256_S50000x256_1_0_0_1_n_n none
          (mulf a (broadcastInDim S50000x128 ![0, 1] bcast_S50000x1_S50000x128_0_1 s)) Wl)
        (broadcastInDim S50000x256 ![0, 1] bcast_S1x256_S50000x256_0_1 (broadcastInDim S1x256 ![1] bcast_S256_S1x256_1 bl)))
      (Host.dotGeneral dot_S50000x128_S128x256_S50000x256_1_0_0_1_n_n none h Wr))
    (broadcastInDim S50000x256 ![] bcast_S_S50000x256 (constant (F := Ideal) S_ .f32 0x00000000#32))

/-- A neighbour-mean layer from 256 to 256 features. -/
def refSage256 (a h : FVec Ideal S50000x256 .f32) (s : FVec Ideal S50000x1 .f32)
    (Wl : FVec Ideal S256x256 .f32) (bl : FVec Ideal S256 .f32) (Wr : FVec Ideal S256x256 .f32) : FVec Ideal S50000x256 .f32 :=
  maximumf
    (addf
      (addf
        (Host.dotGeneral dot_S50000x256_S256x256_S50000x256_1_0_0_1_n_n none
          (mulf a (broadcastInDim S50000x256 ![0, 1] bcast_S50000x1_S50000x256_0_1 s)) Wl)
        (broadcastInDim S50000x256 ![0, 1] bcast_S1x256_S50000x256_0_1 (broadcastInDim S1x256 ![1] bcast_S256_S1x256_1 bl)))
      (Host.dotGeneral dot_S50000x256_S256x256_S50000x256_1_0_0_1_n_n none h Wr))
    (broadcastInDim S50000x256 ![] bcast_S_S50000x256 (constant (F := Ideal) S_ .f32 0x00000000#32))

/-! ## The network -/

/-- The second hidden layer of the reference. -/
def rH1 (E : (⟨S2x800000, .i32⟩ : BufTy).Contents (Elt Ideal)) (g : FVec Ideal S50000x128 .f32)
    (Wl : FVec Ideal S128x256 .f32) (bl : FVec Ideal S256 .f32) (Wr : FVec Ideal S128x256 .f32) : FVec Ideal S50000x256 .f32 :=
  refSage128 (rAgg128 (rSrc E) (rDst E) g) g (rInvDeg (rDst E)) Wl bl Wr

/-- The third and fourth. -/
def rH2 (E : (⟨S2x800000, .i32⟩ : BufTy).Contents (Elt Ideal)) (g : FVec Ideal S50000x256 .f32)
    (Wl : FVec Ideal S256x256 .f32) (bl : FVec Ideal S256 .f32) (Wr : FVec Ideal S256x256 .f32) : FVec Ideal S50000x256 .f32 :=
  refSage256 (rAgg256 (rSrc E) (rDst E) g) g (rInvDeg (rDst E)) Wl bl Wr

/-- The whole reference network. -/
def rNet (x : FVec Ideal S50000x2 .f32) (E : (⟨S2x800000, .i32⟩ : BufTy).Contents (Elt Ideal))
    (Win : FVec Ideal S2x128 .f32) (bin : FVec Ideal S128 .f32)
    (Wl1 : FVec Ideal S128x256 .f32) (bl1 : FVec Ideal S256 .f32) (Wr1 : FVec Ideal S128x256 .f32)
    (Wl2 : FVec Ideal S256x256 .f32) (bl2 : FVec Ideal S256 .f32) (Wr2 : FVec Ideal S256x256 .f32)
    (Wl3 : FVec Ideal S256x256 .f32) (bl3 : FVec Ideal S256 .f32) (Wr3 : FVec Ideal S256x256 .f32) : FVec Ideal S50000x256 .f32 :=
  rH2 E (rH2 E (rH1 E (refIn x Win bin) Wl1 bl1 Wr1) Wl2 bl2 Wr2) Wl3 bl3 Wr3

end Defs

/-! ## Agreement with the entry-wise network -/

variable [Cert.KernelIdeal.Facts] [Cert.ReferenceIdeal.Facts]

theorem rSrc_eq (E : (⟨S2x800000, .i32⟩ : BufTy).Contents (Elt Ideal)) : rSrc E = Cert.Spec.src E := rfl
theorem rDst_eq (E : (⟨S2x800000, .i32⟩ : BufTy).Contents (Elt Ideal)) : rDst E = Cert.Spec.dst E := rfl
theorem rInvDeg_eq (d : (⟨S800000, .i32⟩ : BufTy).Contents (Elt Ideal)) : rInvDeg d = Cert.Spec.invDeg d := rfl
theorem rAgg128_eq (s d : (⟨S800000, .i32⟩ : BufTy).Contents (Elt Ideal)) (h : FVec Ideal S50000x128 .f32) :
    rAgg128 s d h = Cert.Spec.agg128 s d h := rfl
theorem rAgg256_eq (s d : (⟨S800000, .i32⟩ : BufTy).Contents (Elt Ideal)) (h : FVec Ideal S50000x256 .f32) :
    rAgg256 s d h = Cert.Spec.agg256 s d h := rfl

theorem dot2_plain : dot_S50000x2_S2x128_S50000x128_1_0_0_1_n_n = DotDims.plain 50000 2 128 := rfl
theorem dot128_plain : dot_S50000x128_S128x256_S50000x256_1_0_0_1_n_n = DotDims.plain 50000 128 256 := rfl
theorem dot256_plain : dot_S50000x256_S256x256_S50000x256_1_0_0_1_n_n = DotDims.plain 50000 256 256 := rfl

/-- The reference's input projection is the network's. -/
theorem refIn_eq (x : FVec Ideal S50000x2 .f32) (W : FVec Ideal S2x128 .f32) (b : FVec Ideal S128 .f32) :
    refIn x W b = Cert.Spec.inProj x W (Cert.Spec.row128 b) :=
  Cert.LibHostLayers.inProj_host dot_S50000x2_S2x128_S50000x128_1_0_0_1_n_n dot2_plain bcast_S128_S1x128_1
    bcast_S1x128_S50000x128_0_1 bcast_S_S50000x128 Cert.KernelIdeal.Facts₀.shapeCasts_S128_S1x128 x W b

/-- The reference's 128-to-256 neighbour-mean layer is the network's. -/
theorem refSage128_eq (a h : FVec Ideal S50000x128 .f32) (s : FVec Ideal S50000x1 .f32)
    (Wl : FVec Ideal S128x256 .f32) (bl : FVec Ideal S256 .f32) (Wr : FVec Ideal S128x256 .f32) :
    refSage128 a h s Wl bl Wr = Cert.Spec.sage a h s Wl Wr (Cert.Spec.row256 bl) :=
  Cert.LibHostLayers.sage_host dot_S50000x128_S128x256_S50000x256_1_0_0_1_n_n dot128_plain bcast_S50000x1_S50000x128_0_1
    bcast_S256_S1x256_1 bcast_S1x256_S50000x256_0_1 bcast_S_S50000x256 Cert.KernelIdeal.Facts₀.shapeCasts_S256_S1x256 a h s Wl bl Wr

/-- The reference's 256-to-256 neighbour-mean layer is the network's. -/
theorem refSage256_eq (a h : FVec Ideal S50000x256 .f32) (s : FVec Ideal S50000x1 .f32)
    (Wl : FVec Ideal S256x256 .f32) (bl : FVec Ideal S256 .f32) (Wr : FVec Ideal S256x256 .f32) :
    refSage256 a h s Wl bl Wr = Cert.Spec.sage a h s Wl Wr (Cert.Spec.row256 bl) :=
  Cert.LibHostLayers.sage_host dot_S50000x256_S256x256_S50000x256_1_0_0_1_n_n dot256_plain bcast_S50000x1_S50000x256_0_1
    bcast_S256_S1x256_1 bcast_S1x256_S50000x256_0_1 bcast_S_S50000x256 Cert.KernelIdeal.Facts₀.shapeCasts_S256_S1x256 a h s Wl bl Wr

theorem rH1_eq (E : (⟨S2x800000, .i32⟩ : BufTy).Contents (Elt Ideal)) (g : FVec Ideal S50000x128 .f32)
    (Wl : FVec Ideal S128x256 .f32) (bl : FVec Ideal S256 .f32) (Wr : FVec Ideal S128x256 .f32) :
    rH1 E g Wl bl Wr = Cert.Spec.h1 E g Wl bl Wr :=
  refSage128_eq _ _ _ _ _ _

theorem rH2_eq (E : (⟨S2x800000, .i32⟩ : BufTy).Contents (Elt Ideal)) (g : FVec Ideal S50000x256 .f32)
    (Wl : FVec Ideal S256x256 .f32) (bl : FVec Ideal S256 .f32) (Wr : FVec Ideal S256x256 .f32) :
    rH2 E g Wl bl Wr = Cert.Spec.h2 E g Wl bl Wr :=
  refSage256_eq _ _ _ _ _ _

/-- The reference network is the entry-wise network. -/
theorem rNet_eq (x : FVec Ideal S50000x2 .f32) (E : (⟨S2x800000, .i32⟩ : BufTy).Contents (Elt Ideal))
    (Win : FVec Ideal S2x128 .f32) (bin : FVec Ideal S128 .f32)
    (Wl1 : FVec Ideal S128x256 .f32) (bl1 : FVec Ideal S256 .f32) (Wr1 : FVec Ideal S128x256 .f32)
    (Wl2 : FVec Ideal S256x256 .f32) (bl2 : FVec Ideal S256 .f32) (Wr2 : FVec Ideal S256x256 .f32)
    (Wl3 : FVec Ideal S256x256 .f32) (bl3 : FVec Ideal S256 .f32) (Wr3 : FVec Ideal S256x256 .f32) :
    rNet x E Win bin Wl1 bl1 Wr1 Wl2 bl2 Wr2 Wl3 bl3 Wr3 = Cert.Spec.net x E Win bin Wl1 bl1 Wr1 Wl2 bl2 Wr2 Wl3 bl3 Wr3 := by
  unfold rNet Cert.Spec.net Cert.Spec.h0
  rw [refIn_eq, rH1_eq, rH2_eq, rH2_eq]

end Cert.ReferenceIdeal.RefValue

end
-- ==== Proof.RefValue.lean ====
/-
  The reference program's result is the entry-wise network of its arguments.

  The reference's run ends with its result buffer at one composed term of host operations of the launch
  contents.  That term is, by unfolding alone, the reference's layers applied to one another; and those are
  the network's layers.
-/
import proofs.«175068_j41858751266832_1_alg».proof.Proof.RefRun
import proofs.«175068_j41858751266832_1_alg».proof.Proof.RefLayers

noncomputable section

namespace Cert.ReferenceIdeal.RefValue

open Idealize.ShloMosaic Idealize.ShloMosaic.TcCoe Idealize.SL.Sem
open Cert.ReferenceIdeal

/-- The reference's result buffer is the reference's layers composed, at the launch contents of its thirteen arguments. -/
theorem res_eq [Cert.ReferenceIdeal.Facts] (m : (ℓ : Loc nD τ sig) → Buf (Elt Ideal) ℓ) (c : Dev nD) :
    Cert.ReferenceIdeal.ValueP.res_main_v75 (F := Ideal) m c
      = rNet (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) := by
  unfold Cert.ReferenceIdeal.ValueP.res_main_v75
  rfl

/-- The reference's result buffer is the entry-wise network of the launch contents of its thirteen arguments. -/
theorem ref_value [Cert.KernelIdeal.Facts] [Cert.ReferenceIdeal.Facts]
    (m : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v75 (F := Ideal) m c
      = Cert.Spec.net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) :=
  (res_eq m c).trans (rNet_eq _ _ _ _ _ _ _ _ _ _ _ _ _)

end Cert.ReferenceIdeal.RefValue

end
-- ==== Proof.lean ====
/-
  The certificate: a three-layer neighbour-mean network over a graph, tiled over its 50000 nodes, against the
  same network written as whole-array operations.

  The kernel program computes the input projection and each of the three layers in a pipelined region over 25 row
  tiles of 2000 nodes, with the inverse in-degrees, the gathers of source rows and the scatter-adds onto
  destination rows done by host operations between the regions; the reference does everything with whole-array
  host operations.  Read over the extended reals, where a change of float format is the identity and a matrix
  product is its plain sum, both end with the result `Cert.Spec.net` of the argument arrays: a region leaves in
  its output array the layer's entries row tile by row tile, the tiles cover the array, and the kernel's layer
  `(a·Wl + h·Wr) + b` is the reference's `(a·Wl + b) + h·Wr` by commutativity and associativity of the
  sum alone, so no finiteness of the inputs is used.  The three frame claims are the generated frames (the
  reference's is its run with the result dropped); the idealization rewrote nothing, so `preserves` is trivial.
-/
import proofs.«175068_j41858751266832_1_alg».proof.Defs
import proofs.«175068_j41858751266832_1_alg».proof.Proof.Gen.Kernel
import proofs.«175068_j41858751266832_1_alg».proof.Proof.Gen.Kernel.Frame
import proofs.«175068_j41858751266832_1_alg».proof.Proof.Gen.KernelIdeal
import proofs.«175068_j41858751266832_1_alg».proof.Proof.Gen.KernelIdeal.Frame
import proofs.«175068_j41858751266832_1_alg».proof.Proof.Gen.ReferenceIdeal
import proofs.«175068_j41858751266832_1_alg».proof.Proof.Gen.Pre_finite_inputs
import proofs.«175068_j41858751266832_1_alg».proof.Proof.KernelRun
import proofs.«175068_j41858751266832_1_alg».proof.Proof.Boundary
import proofs.«175068_j41858751266832_1_alg».proof.Proof.RefRun
import proofs.«175068_j41858751266832_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the network of the argument arrays in their result buffers: the kernel's by the walk
    through its boundaries, the reference's by its run's term read layer by layer; the memories agree on the
    arguments. -/
theorem algebraic : Cert.algebraic_KernelIdeal_ReferenceIdeal := by
  intro m ρ m' ρ' _ hagree
  refine ⟨fun c => Cert.Spec.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Boundary.result m ρ c), (h c).2⟩)
      (Cert.KernelIdeal.Named.run (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9, e10, e11, e12⟩ := hagree c
    rw [Cert.ReferenceIdeal.RefValue.ref_value m' c, e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
